-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x16 : Shape := ⟨2, ![800000, 16]⟩
abbrev S50000x4 : Shape := ⟨2, ![50000, 4]⟩
abbrev S800000 : Shape := ⟨1, ![800000]⟩
abbrev S16x128 : Shape := ⟨2, ![16, 128]⟩
abbrev S128 : Shape := ⟨1, ![128]⟩
abbrev S4x128 : Shape := ⟨2, ![4, 128]⟩
abbrev S2x128x128 : Shape := ⟨3, ![2, 128, 128]⟩
abbrev S2x128 : Shape := ⟨2, ![2, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S800000x16 : S_.BroadcastsInDim S800000x16 (![] : Fin 0 → Fin S800000x16.rank)
  reducesTo_S800000x16_S_d0_1 : S800000x16.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S2x128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S4x128 .f32) (main_arg7 : FVec F S128 .f32) (main_arg8 : FVec F S2x128x128 .f32) (main_arg9 : FVec F S2x128 .f32) (main_arg10 : FVec F S128x128 .f32) (main_arg11 : FVec F S128 .f32) (main_arg12 : FVec F S128x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg8
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S800000x16 .f32) (main_arg1 : FVec F S50000x4 .f32) (main_arg2 : IVec S800000 32) (main_arg3 : IVec S800000 32) (main_arg4 : FVec F S16x128 .f32) (main_arg5 : FVec F S128 .f32) (main_arg6 : FVec F S4x128 .f32) (main_arg7 : FVec F S128 .f32) (main_arg8 : FVec F S2x128x128 .f32) (main_arg9 : FVec F S2x128 .f32) (main_arg10 : FVec F S128x128 .f32) (main_arg11 : FVec F S128 .f32) (main_arg12 : FVec F S128x1 .f32) (main_arg13 : FVec F S1 .f32) : IVec S_ 1 :=
  let main_v0 : FVec F S800000x16 .f32 := Host.absf main_arg0
  let main_cst : FVec F S_ .f32 := constant S_ .f32 0x7F800000#32
  let main_v1 : FVec F S800000x16 .f32 := broadcastInDim S800000x16 ![] bcast_S_S800000x16 main_cst
  let main_v2 : IVec S800000x16 1 := cmpf .olt main_v0 main_v1
  let main_c : IVec S_ 1 := constantI S_ 1 1#1
  let main_v3 : IVec S_ 1 := (fun x v => Host.reduce IntOp.andi x v reducesTo_S800000x16_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S800000x16 : Shape := ⟨2, ![800000, 16]⟩
abbrev S50000x4 : Shape := ⟨2, ![50000, 4]⟩
abbrev S800000 : Shape := ⟨1, ![800000]⟩
abbrev S16x128 : Shape := ⟨2, ![16, 128]⟩
abbrev S128 : Shape := ⟨1, ![128]⟩
abbrev S4x128 : Shape := ⟨2, ![4, 128]⟩
abbrev S2x128x128 : Shape := ⟨3, ![2, 128, 128]⟩
abbrev S2x128 : Shape := ⟨2, ![2, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S51200x4 : Shape := ⟨2, ![51200, 4]⟩
abbrev S1x128 : Shape := ⟨2, ![1, 128]⟩
abbrev S51200x128 : Shape := ⟨2, ![51200, 128]⟩
abbrev S2048x4 : Shape := ⟨2, ![2048, 4]⟩
abbrev S2048x128 : Shape := ⟨2, ![2048, 128]⟩
abbrev S50000x128 : Shape := ⟨2, ![50000, 128]⟩
abbrev S50000x1 : Shape := ⟨2, ![50000, 1]⟩
abbrev S800000x128 : Shape := ⟨2, ![800000, 128]⟩
abbrev S1x128x128 : Shape := ⟨3, ![1, 128, 128]⟩
abbrev S802816x128 : Shape := ⟨2, ![802816, 128]⟩
abbrev S8192x128 : Shape := ⟨2, ![8192, 128]⟩
abbrev S1x1 : Shape := ⟨2, ![1, 1]⟩
abbrev S802816x1 : Shape := ⟨2, ![802816, 1]⟩
abbrev S8192x1 : Shape := ⟨2, ![8192, 1]⟩

abbrev nBuf : Space → Nat
  | .hbm => 133
  | .vmem => 30
  | .smem => 0
  | _ => 0

abbrev hbmTy0_0 (i : Nat) : BufTy := match i % 128 with
  | 0 => ⟨S800000x16, .f32⟩
  | 1 => ⟨S50000x4, .f32⟩
  | 2 => ⟨S800000, .i32⟩
  | 3 => ⟨S800000, .i32⟩
  | 4 => ⟨S16x128, .f32⟩
  | 5 => ⟨S128, .f32⟩
  | 6 => ⟨S4x128, .f32⟩
  | 7 => ⟨S128, .f32⟩
  | 8 => ⟨S2x128x128, .f32⟩
  | 9 => ⟨S2x128, .f32⟩
  | 10 => ⟨S128x128, .f32⟩
  | 11 => ⟨S128, .f32⟩
  | 12 => ⟨S128x1, .f32⟩
  | 13 => ⟨S1, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .i32⟩
  | 39 => ⟨S_, .f32⟩
  | 40 => ⟨S51200x4, .f32⟩
  | 41 => ⟨S1x128, .f32⟩
  | 42 => ⟨S51200x128, .f32⟩
  | 43 => ⟨S50000x128, .f32⟩
  | 44 => ⟨S50000x1, .f32⟩
  | 45 => ⟨S50000x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x1, .f32⟩
  | 61 => ⟨S50000x128, .f32⟩
  | 62 => ⟨S50000x128, .f32⟩
  | 63 => ⟨S1x128x128, .f32⟩
  | 64 => ⟨S128x128, .f32⟩
  | 65 => ⟨S1x128, .f32⟩
  | 66 => ⟨S128, .f32⟩
  | 67 => ⟨S_, .i32⟩
  | 68 => ⟨S_, .f32⟩
  | 69 => ⟨S51200x128, .f32⟩
  | 70 => ⟨S1x128, .f32⟩
  | 71 => ⟨S51200x128, .f32⟩
  | 72 => ⟨S50000x128, .f32⟩
  | 73 => ⟨S50000x1, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x1, .f32⟩
  | 90 => ⟨S50000x128, .f32⟩
  | 91 => ⟨S50000x128, .f32⟩
  | 92 => ⟨S1x128x128, .f32⟩
  | 93 => ⟨S128x128, .f32⟩
  | 94 => ⟨S1x128, .f32⟩
  | 95 => ⟨S128, .f32⟩
  | 96 => ⟨S_, .i32⟩
  | 97 => ⟨S_, .f32⟩
  | 98 => ⟨S51200x128, .f32⟩
  | 99 => ⟨S1x128, .f32⟩
  | 100 => ⟨S51200x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S_, .i32⟩
  | 122 => ⟨S_, .f32⟩
  | 123 => ⟨S802816x128, .f32⟩
  | 124 => ⟨S1x128, .f32⟩
  | 125 => ⟨S802816x128, .f32⟩
  | 126 => ⟨S800000x128, .f32⟩
  | 127 => ⟨S_, .i32⟩
  | _ => ⟨S800000x16, .f32⟩

abbrev hbmTy0_1 (i : Nat) : BufTy := match i % 128 with
  | 0 => ⟨S_, .f32⟩
  | 1 => ⟨S802816x128, .f32⟩
  | 2 => ⟨S1x1, .f32⟩
  | 3 => ⟨S802816x1, .f32⟩
  | 4 => ⟨S800000x1, .f32⟩
  | _ => ⟨S800000x16, .f32⟩

abbrev hbmTy (i : Nat) : BufTy := match i / 128 with
  | 0 => hbmTy0_0 i
  | 1 => hbmTy0_1 i
  | _ => ⟨S800000x16, .f32⟩

abbrev bufTy : (tb : Table) → Fin (tcTables nBuf tb) → BufTy
  | .hbm, ⟨i, _⟩ => hbmTy i
  | .local _ .vmem, ⟨0, _⟩ => ⟨S2048x4, .f32⟩
  | .local _ .vmem, ⟨1, _⟩ => ⟨S2048x4, .f32⟩
  | .local _ .vmem, ⟨2, _⟩ => ⟨S4x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S128x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S8192x128, .f32⟩
  | .local _ .vmem, ⟨19, _⟩ => ⟨S8192x128, .f32⟩
  | .local _ .vmem, ⟨20, _⟩ => ⟨S128x128, .f32⟩
  | .local _ .vmem, ⟨21, _⟩ => ⟨S1x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S128x1, .f32⟩
  | .local _ .vmem, ⟨27, _⟩ => ⟨S1x1, .f32⟩
  | .local _ .vmem, ⟨28, _⟩ => ⟨S8192x1, .f32⟩
  | .local _ .vmem, ⟨29, _⟩ => ⟨S8192x1, .f32⟩
  | _, _ => ⟨S800000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_call2_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_6 : Ref sig .tc := ⟨.hbm, 47, rfl⟩
abbrev main_v20 : Ref sig .tc := ⟨.hbm, 48, rfl⟩
abbrev main_v21 : Ref sig .tc := ⟨.hbm, 49, rfl⟩
abbrev main_c_7 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_8 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_call3_v0 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_13 : Ref sig .tc := ⟨.hbm, 96, rfl⟩
abbrev main_call4_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_14 : Ref sig .tc := ⟨.hbm, 102, rfl⟩
abbrev main_v65 : Ref sig .tc := ⟨.hbm, 103, rfl⟩
abbrev main_v66 : Ref sig .tc := ⟨.hbm, 104, rfl⟩
abbrev main_c_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_16 : Ref sig .tc := ⟨.hbm, 111, rfl⟩
abbrev main_v72 : Ref sig .tc := ⟨.hbm, 112, rfl⟩
abbrev main_v73 : Ref sig .tc := ⟨.hbm, 113, rfl⟩
abbrev main_c_17 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_call5_v0 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_19 : Ref sig .tc := ⟨.hbm, 127, rfl⟩
abbrev main_call6_v0 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![98], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S50000x4_S51200x4_012000_000 : S50000x4.Pads (![0, 0] : Fin 2 → Nat) ![1200, 0] ![0, 0] S51200x4
  h_S_ : 0 < S_.numel
  shapeCasts_S128_S1x128 : S128.ShapeCasts S1x128
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S51200x128_S50000x128_0_0 : S51200x128.Slices ![0, 0] S50000x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  pads_S50000x128_S51200x128_012000_000 : S50000x128.Pads (![0, 0] : Fin 2 → Nat) ![1200, 0] ![0, 0] S51200x128
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  pads_S800000x128_S802816x128_028160_000 : S800000x128.Pads (![0, 0] : Fin 2 → Nat) ![2816, 0] ![0, 0] S802816x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S1x128_S8192x128 : S1x128.Broadcasts S8192x128
  slices_S802816x128_S800000x128_0_0 : S802816x128.Slices ![0, 0] S800000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  slices_S802816x1_S800000x1_0_0 : S802816x1.Slices ![0, 0] S800000x1
  scatter_S50000_S800000x1_S800000_n_0_0_1_wf : ScatterDims.WF S50000 S800000x1 S800000 [] [0] [0] 1
  dot_S2048x4_S4x128_S2048x128_1_0_0_1_n_n_wf : DotDims.WF S2048x4 S4x128 S2048x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2048x128_S128x128_S2048x128_1_0_0_1_n_n_wf : DotDims.WF S2048x128 S128x128 S2048x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S51200x4.size a
  hwx0_0 : ∀ i : grid0.Coords, EltTy.bits .f32 = 32 ∨ (Rect.block (s := S51200x4) S2048x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S51200x128.size a
  hwx0_3 : ∀ i : grid0.Coords, EltTy.bits .f32 = 32 ∨ (Rect.block (s := S51200x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .f32 = 32 ∨ (Rect.block (s := S51200x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S51200x128.size a
  hwx1_3 : ∀ i : grid1.Coords, EltTy.bits .f32 = 32 ∨ (Rect.block (s := S51200x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S51200x128.size a
  hwx2_0 : ∀ i : grid2.Coords, EltTy.bits .f32 = 32 ∨ (Rect.block (s := S51200x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S51200x128.size a
  hwx2_3 : ∀ i : grid2.Coords, EltTy.bits .f32 = 32 ∨ (Rect.block (s := S51200x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S802816x128.size a
  hwx3_0 : ∀ i : grid3.Coords, EltTy.bits .f32 = 32 ∨ (Rect.block (s := S802816x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S802816x128.size a
  hwx3_3 : ∀ i : grid3.Coords, EltTy.bits .f32 = 32 ∨ (Rect.block (s := S802816x128) S8192x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S802816x128.size a
  hwx4_0 : ∀ i : grid4.Coords, EltTy.bits .f32 = 32 ∨ (Rect.block (s := S802816x128) S8192x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x1.size a ≤ S802816x1.size a
  hwx4_3 : ∀ i : grid4.Coords, EltTy.bits .f32 = 32 ∨ (Rect.block (s := S802816x1) S8192x1.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2048x4_S4x128_S2048x128_1_0_0_1_n_n : DotDims S2048x4 S4x128 S2048x128 where
  lhsContracting := [1]
  rhsContracting := [0]
  lhsNonContracting := [0]
  rhsNonContracting := [1]
  lhsBatch := []
  rhsBatch := []
  wf := dot_S2048x4_S4x128_S2048x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_v13) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v84) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S8192x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S800000x16 : Shape := ⟨2, ![800000, 16]⟩
abbrev S50000x4 : Shape := ⟨2, ![50000, 4]⟩
abbrev S800000 : Shape := ⟨1, ![800000]⟩
abbrev S16x128 : Shape := ⟨2, ![16, 128]⟩
abbrev S128 : Shape := ⟨1, ![128]⟩
abbrev S4x128 : Shape := ⟨2, ![4, 128]⟩
abbrev S2x128x128 : Shape := ⟨3, ![2, 128, 128]⟩
abbrev S2x128 : Shape := ⟨2, ![2, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S50000x128 : Shape := ⟨2, ![50000, 128]⟩
abbrev S50000x1 : Shape := ⟨2, ![50000, 1]⟩
abbrev S1x128x128 : Shape := ⟨3, ![1, 128, 128]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S800000x16, .f32⟩
  | 1 => ⟨S50000x4, .f32⟩
  | 2 => ⟨S800000, .i32⟩
  | 3 => ⟨S800000, .i32⟩
  | 4 => ⟨S16x128, .f32⟩
  | 5 => ⟨S128, .f32⟩
  | 6 => ⟨S4x128, .f32⟩
  | 7 => ⟨S128, .f32⟩
  | 8 => ⟨S2x128x128, .f32⟩
  | 9 => ⟨S2x128, .f32⟩
  | 10 => ⟨S128x128, .f32⟩
  | 11 => ⟨S128, .f32⟩
  | 12 => ⟨S128x1, .f32⟩
  | 13 => ⟨S1, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S800000x128, .f32⟩
  | 39 => ⟨S1x128, .f32⟩
  | 40 => ⟨S800000x128, .f32⟩
  | 41 => ⟨S800000x128, .f32⟩
  | 42 => ⟨S50000x128, .f32⟩
  | 43 => ⟨S1x128, .f32⟩
  | 44 => ⟨S50000x128, .f32⟩
  | 45 => ⟨S50000x128, .f32⟩
  | 46 => ⟨S50000x1, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x1, .f32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x1, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x1, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x128, .f32⟩
  | 125 => ⟨S800000x128, .f32⟩
  | 126 => ⟨S1x128, .f32⟩
  | 127 => ⟨S800000x128, .f32⟩
  | _ => ⟨S800000x16, .f32⟩

abbrev hbmTy0_1 (i : Nat) : BufTy := match i % 128 with
  | 0 => ⟨S800000x128, .f32⟩
  | 1 => ⟨S_, .f32⟩
  | 2 => ⟨S800000x128, .f32⟩
  | 3 => ⟨S800000x128, .f32⟩
  | 4 => ⟨S800000x1, .f32⟩
  | 5 => ⟨S1x1, .f32⟩
  | 6 => ⟨S800000x1, .f32⟩
  | 7 => ⟨S800000x1, .f32⟩
  | _ => ⟨S800000x16, .f32⟩

abbrev hbmTy (i : Nat) : BufTy := match i / 128 with
  | 0 => hbmTy0_0 i
  | 1 => hbmTy0_1 i
  | _ => ⟨S800000x16, .f32⟩

abbrev bufTy : (tb : Table) → Fin (tcTables nBuf tb) → BufTy
  | .hbm, ⟨i, _⟩ => hbmTy i
  | _, _ => ⟨S800000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call2_cst : Ref sig .tc := ⟨.hbm, 73, rfl⟩
abbrev main_call2_v0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_8 : Ref sig .tc := ⟨.hbm, 79, rfl⟩
abbrev main_v49 : Ref sig .tc := ⟨.hbm, 80, rfl⟩
abbrev main_v50 : Ref sig .tc := ⟨.hbm, 81, rfl⟩
abbrev main_c_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call3_cst : Ref sig .tc := ⟨.hbm, 103, rfl⟩
abbrev main_call3_v0 : Ref sig .tc := ⟨.hbm, 104, rfl⟩
abbrev main_v70 : Ref sig .tc := ⟨.hbm, 105, rfl⟩
abbrev main_c_11 : Ref sig .tc := ⟨.hbm, 106, rfl⟩
abbrev main_v71 : Ref sig .tc := ⟨.hbm, 107, rfl⟩
abbrev main_v72 : Ref sig .tc := ⟨.hbm, 108, rfl⟩
abbrev main_c_12 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_13 : Ref sig .tc := ⟨.hbm, 115, rfl⟩
abbrev main_v78 : Ref sig .tc := ⟨.hbm, 116, rfl⟩
abbrev main_v79 : Ref sig .tc := ⟨.hbm, 117, rfl⟩
abbrev main_c_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call4_cst : Ref sig .tc := ⟨.hbm, 129, rfl⟩
abbrev main_call4_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  scatter_S50000_S800000x1_S800000_n_0_0_1_wf : ScatterDims.WF S50000 S800000x1 S800000 [] [0] [0] 1
  dot_S800000x16_S16x128_S800000x128_1_0_0_1_n_n_wf : DotDims.WF S800000x16 S16x128 S800000x128 [1] [0] [0] [1] [] []
  dot_S50000x4_S4x128_S50000x128_1_0_0_1_n_n_wf : DotDims.WF S50000x4 S4x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KRun.lean ====
/-
  The idealized kernel program's run WITH its result: every weakly fair execution of @main terminates without fault
  and ends with the result buffer at the last entry of the chain of buffer contents that @main's segments (stretches of
  host operations and the five tiled calls) fold from the launch memory, and with the fourteen argument arrays as
  launched. The frame claim is this run with the result's equation dropped.
-/
import proofs.«165604_j8830452760704_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with its result: at the compiled mesh, from any memory with zero counters, every weakly fair
    execution of @main on the TensorCores terminates without fault, and in every final state the result buffer
    `main_v87` of each core holds the last boundary contents `W25` of the fold, and each of the fourteen argument
    arrays holds what it held at launch. -/
theorem run_all : θ_run defs (onTc (τ := τ) (main (F := F))) ⟨m, fun _ => 0, ρ⟩ (fun r => ∀ c : Dev nD,
      r.2.mem ((c.tc : Thread nD τ).loc main_v87) = W25 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v87 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c)⟩)

end Cert.KernelIdeal.Chain

end
-- ==== Proof.KChain.lean ====
/-
  What the idealized kernel program's host operations compute between its five tiled calls, as pure terms: for each
  call its three input arrays (rows, weight, bias row) over the launch contents of the arguments and the previous call's
  output array, and the result array over the last call's output. The two degree norms, computed before the first
  call and read again before the second and third, and the arguments themselves are followed unchanged across the calls
  that do not write them.
-/
import proofs.«165604_j8830452760704_1_alg».proof.Proof.Gen.KernelIdeal.Frame

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

/-! # The pure terms the host stretches compute

`degNorm idx` is the degree norm of an index array: the scatter-add of ones at the indices, clipped below at one,
raised to the power minus one half. `gatherIdx idx` is the index array with its negative entries shifted up by the
node count. `graphAgg h nOut nIn src dst` is one graph aggregation: the rows of `h` scaled by `nOut`, gathered at
`src`, scatter-added at `dst`, and scaled by `nIn`. -/

/-- The degree norm of an index array. -/
def degNorm (idx : (⟨S800000, .i32⟩ : BufTy).Contents (Elt F)) : (⟨S50000, .f32⟩ : BufTy).Contents (Elt F) :=
  Host.powf (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32)))) (broadcastInDim S50000 ![] bcast_S_S50000 (constant S_ .f32 0xBF000000#32))

/-- The gather index of an index array. -/
def gatherIdx (idx : (⟨S800000, .i32⟩ : BufTy).Contents (Elt F)) : (⟨S800000, .i32⟩ : BufTy).Contents (Elt F) :=
  select (cmpi .slt idx (broadcastInDim S800000 ![] bcast_S_S800000 (constantI S_ 32 0#32))) (addi idx (broadcastInDim S800000 ![] bcast_S_S800000 (constantI S_ 32 50000#32))) idx

/-- One graph aggregation of the node rows `h` along the edges `src → dst`, the two degree norms given. -/
def graphAgg (h : (⟨S50000x128, .f32⟩ : BufTy).Contents (Elt F)) (nOut nIn : (⟨S50000, .f32⟩ : BufTy).Contents (Elt F))
    (src dst : (⟨S800000, .i32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 (mulf h (broadcastInDim S50000x128 ![0, 1] bcast_S50000x1_S50000x128_0_1 (broadcastInDim S50000x1 ![0] bcast_S50000_S50000x1_0 nOut))) (broadcastInDim S800000x1 ![0] bcast_S800000_S800000x1_0 (gatherIdx src)))) (broadcastInDim S50000x128 ![0, 1] bcast_S50000x1_S50000x128_0_1 (broadcastInDim S50000x1 ![0] bcast_S50000_S50000x1_0 nIn))

variable (m : (ℓ : Loc nD τ sig) → Buf (Elt F) ℓ) (ρ : Dev nD → PrngReg) (c : Dev nD)

/-! ## Region 0's input arrays -/

/-- Region 0's row array: the node features, padded below with zero rows. -/
theorem in0_x : V7 m ρ c main_v13 = pad S51200x4 ![0, 0] ![1200, 0] ![0, 0] (m ((c.tc : Thread nD τ).loc main_arg1)) (sitofp .f32 (constantI S_ 32 0#32)) pads_S50000x4_S51200x4_012000_000 h_S_ := by
  dsimp only [V7, W7, W6, W5, W4, W3, W2, W1]
  after_results_simp <;> rfl

/-- Region 0's weight array: the node-embedding weights as launched. -/
theorem in0_w : V7 m ρ c main_arg6 = (m ((c.tc : Thread nD τ).loc main_arg6)) := by
  dsimp only [V7, W7, W6, W5, W4, W3, W2, W1]
  after_results_simp <;> rfl

/-- Region 0's bias array: the node-embedding bias as one row. -/
theorem in0_b : V7 m ρ c main_v14 = fun i => shapeCast S1x128 (m ((c.tc : Thread nD τ).loc main_arg7)) shapeCasts_S128_S1x128 i := by
  dsimp only [V7, W7, W6, W5, W4, W3, W2, W1]
  after_results_simp <;> rfl

/-! ## The values later stretches read, at region 0's entry and exit: the two degree norms and the arguments -/

theorem at7_v10 : W7 m ρ c (Proc.devRef .tc main_v10) = degNorm (m ((c.tc : Thread nD τ).loc main_arg2)) := by
  dsimp only [W7, W6, W5, W4, W3, W2, W1]
  after_results_simp <;> rfl
theorem at7_v12 : W7 m ρ c (Proc.devRef .tc main_v12) = degNorm (m ((c.tc : Thread nD τ).loc main_arg3)) := by
  dsimp only [W7, W6, W5, W4, W3, W2, W1]
  after_results_simp <;> rfl
theorem at7_arg2 : W7 m ρ c (Proc.devRef .tc main_arg2) = (m ((c.tc : Thread nD τ).loc main_arg2)) := by
  dsimp only [W7, W6, W5, W4, W3, W2, W1]
  after_results_simp <;> rfl
theorem at7_arg3 : W7 m ρ c (Proc.devRef .tc main_arg3) = (m ((c.tc : Thread nD τ).loc main_arg3)) := by
  dsimp only [W7, W6, W5, W4, W3, W2, W1]
  after_results_simp <;> rfl
theorem at7_arg8 : W7 m ρ c (Proc.devRef .tc main_arg8) = (m ((c.tc : Thread nD τ).loc main_arg8)) := by
  dsimp only [W7, W6, W5, W4, W3, W2, W1]
  after_results_simp <;> rfl
theorem at7_arg9 : W7 m ρ c (Proc.devRef .tc main_arg9) = (m ((c.tc : Thread nD τ).loc main_arg9)) := by
  dsimp only [W7, W6, W5, W4, W3, W2, W1]
  after_results_simp <;> rfl
theorem at7_arg10 : W7 m ρ c (Proc.devRef .tc main_arg10) = (m ((c.tc : Thread nD τ).loc main_arg10)) := by
  dsimp only [W7, W6, W5, W4, W3, W2, W1]
  after_results_simp <;> rfl
theorem at7_arg11 : W7 m ρ c (Proc.devRef .tc main_arg11) = (m ((c.tc : Thread nD τ).loc main_arg11)) := by
  dsimp only [W7, W6, W5, W4, W3, W2, W1]
  after_results_simp <;> rfl
theorem at7_arg12 : W7 m ρ c (Proc.devRef .tc main_arg12) = (m ((c.tc : Thread nD τ).loc main_arg12)) := by
  dsimp only [W7, W6, W5, W4, W3, W2, W1]
  after_results_simp <;> rfl
theorem at7_arg13 : W7 m ρ c (Proc.devRef .tc main_arg13) = (m ((c.tc : Thread nD τ).loc main_arg13)) := by
  dsimp only [W7, W6, W5, W4, W3, W2, W1]
  after_results_simp <;> rfl

theorem at8_v10 : W8 m ρ c (Proc.devRef .tc main_v10) = degNorm (m ((c.tc : Thread nD τ).loc main_arg2)) :=
  (W8_of_ne m ρ c main_v10 (by decide)).trans (at7_v10 m ρ c)
theorem at8_v12 : W8 m ρ c (Proc.devRef .tc main_v12) = degNorm (m ((c.tc : Thread nD τ).loc main_arg3)) :=
  (W8_of_ne m ρ c main_v12 (by decide)).trans (at7_v12 m ρ c)
theorem at8_arg2 : W8 m ρ c (Proc.devRef .tc main_arg2) = (m ((c.tc : Thread nD τ).loc main_arg2)) :=
  (W8_of_ne m ρ c main_arg2 (by decide)).trans (at7_arg2 m ρ c)
theorem at8_arg3 : W8 m ρ c (Proc.devRef .tc main_arg3) = (m ((c.tc : Thread nD τ).loc main_arg3)) :=
  (W8_of_ne m ρ c main_arg3 (by decide)).trans (at7_arg3 m ρ c)
theorem at8_arg8 : W8 m ρ c (Proc.devRef .tc main_arg8) = (m ((c.tc : Thread nD τ).loc main_arg8)) :=
  (W8_of_ne m ρ c main_arg8 (by decide)).trans (at7_arg8 m ρ c)
theorem at8_arg9 : W8 m ρ c (Proc.devRef .tc main_arg9) = (m ((c.tc : Thread nD τ).loc main_arg9)) :=
  (W8_of_ne m ρ c main_arg9 (by decide)).trans (at7_arg9 m ρ c)
theorem at8_arg10 : W8 m ρ c (Proc.devRef .tc main_arg10) = (m ((c.tc : Thread nD τ).loc main_arg10)) :=
  (W8_of_ne m ρ c main_arg10 (by decide)).trans (at7_arg10 m ρ c)
theorem at8_arg11 : W8 m ρ c (Proc.devRef .tc main_arg11) = (m ((c.tc : Thread nD τ).loc main_arg11)) :=
  (W8_of_ne m ρ c main_arg11 (by decide)).trans (at7_arg11 m ρ c)
theorem at8_arg12 : W8 m ρ c (Proc.devRef .tc main_arg12) = (m ((c.tc : Thread nD τ).loc main_arg12)) :=
  (W8_of_ne m ρ c main_arg12 (by decide)).trans (at7_arg12 m ρ c)
theorem at8_arg13 : W8 m ρ c (Proc.devRef .tc main_arg13) = (m ((c.tc : Thread nD τ).loc main_arg13)) :=
  (W8_of_ne m ρ c main_arg13 (by decide)).trans (at7_arg13 m ρ c)

/-! ## Region 1's input arrays, over region 0's result `W8 m ρ c (Proc.devRef .tc main_v15)` -/

/-- Region 1's row array: the graph aggregation of region 0's result (its padding rows cut off), padded below
    with zero rows. -/
theorem in1_x : V11 m ρ c main_v37 = pad S51200x128 ![0, 0] ![1200, 0] ![0, 0] (graphAgg (extractStridedSlice S50000x128 ![0, 0] (W8 m ρ c (Proc.devRef .tc main_v15)) slices_S51200x128_S50000x128_0_0) (degNorm (m ((c.tc : Thread nD τ).loc main_arg2))) (degNorm (m ((c.tc : Thread nD τ).loc main_arg3))) (m ((c.tc : Thread nD τ).loc main_arg2)) (m ((c.tc : Thread nD τ).loc main_arg3))) (sitofp .f32 (constantI S_ 32 0#32)) pads_S50000x128_S51200x128_012000_000 h_S_ := by
  dsimp only [V11, W11, W10, W9]
  after_results_simp
  rw [at8_v10 m ρ c, at8_v12 m ρ c, at8_arg2 m ρ c, at8_arg3 m ρ c]
  unfold graphAgg gatherIdx
  rfl

/-- Region 1's weight array: layer 0 of the stacked graph-convolution weights. -/
theorem in1_w : V11 m ρ c main_v34 = fun i => shapeCast S128x128 (extractStridedSlice S1x128x128 ![0, 0, 0] (m ((c.tc : Thread nD τ).loc main_arg8)) slices_S2x128x128_S1x128x128_0_0_0) shapeCasts_S1x128x128_S128x128 i := by
  dsimp only [V11, W11, W10, W9]
  after_results_simp
  rw [at8_arg8 m ρ c]
  rfl

/-- Region 1's bias array: layer 0 of the stacked graph-convolution biases, as one row. -/
theorem in1_b : V11 m ρ c main_v38 = fun i => shapeCast S1x128 (fun i => shapeCast S128 (extractStridedSlice S1x128 ![0, 0] (m ((c.tc : Thread nD τ).loc main_arg9)) slices_S2x128_S1x128_0_0) shapeCasts_S1x128_S128 i) shapeCasts_S128_S1x128 i := by
  dsimp only [V11, W11, W10, W9]
  after_results_simp
  rw [at8_arg9 m ρ c]
  rfl

/-! ## The same values at region 1's exit -/

theorem at12_v10 : W12 m ρ c (Proc.devRef .tc main_v10) = degNorm (m ((c.tc : Thread nD τ).loc main_arg2)) := by
  rw [W12_of_ne m ρ c main_v10 (by decide)]
  dsimp only [W11, W10, W9]
  after_results_simp
  exact at8_v10 m ρ c
theorem at12_v12 : W12 m ρ c (Proc.devRef .tc main_v12) = degNorm (m ((c.tc : Thread nD τ).loc main_arg3)) := by
  rw [W12_of_ne m ρ c main_v12 (by decide)]
  dsimp only [W11, W10, W9]
  after_results_simp
  exact at8_v12 m ρ c
theorem at12_arg2 : W12 m ρ c (Proc.devRef .tc main_arg2) = (m ((c.tc : Thread nD τ).loc main_arg2)) := by
  rw [W12_of_ne m ρ c main_arg2 (by decide)]
  dsimp only [W11, W10, W9]
  after_results_simp
  exact at8_arg2 m ρ c
theorem at12_arg3 : W12 m ρ c (Proc.devRef .tc main_arg3) = (m ((c.tc : Thread nD τ).loc main_arg3)) := by
  rw [W12_of_ne m ρ c main_arg3 (by decide)]
  dsimp only [W11, W10, W9]
  after_results_simp
  exact at8_arg3 m ρ c
theorem at12_arg8 : W12 m ρ c (Proc.devRef .tc main_arg8) = (m ((c.tc : Thread nD τ).loc main_arg8)) := by
  rw [W12_of_ne m ρ c main_arg8 (by decide)]
  dsimp only [W11, W10, W9]
  after_results_simp
  exact at8_arg8 m ρ c
theorem at12_arg9 : W12 m ρ c (Proc.devRef .tc main_arg9) = (m ((c.tc : Thread nD τ).loc main_arg9)) := by
  rw [W12_of_ne m ρ c main_arg9 (by decide)]
  dsimp only [W11, W10, W9]
  after_results_simp
  exact at8_arg9 m ρ c
theorem at12_arg10 : W12 m ρ c (Proc.devRef .tc main_arg10) = (m ((c.tc : Thread nD τ).loc main_arg10)) := by
  rw [W12_of_ne m ρ c main_arg10 (by decide)]
  dsimp only [W11, W10, W9]
  after_results_simp
  exact at8_arg10 m ρ c
theorem at12_arg11 : W12 m ρ c (Proc.devRef .tc main_arg11) = (m ((c.tc : Thread nD τ).loc main_arg11)) := by
  rw [W12_of_ne m ρ c main_arg11 (by decide)]
  dsimp only [W11, W10, W9]
  after_results_simp
  exact at8_arg11 m ρ c
theorem at12_arg12 : W12 m ρ c (Proc.devRef .tc main_arg12) = (m ((c.tc : Thread nD τ).loc main_arg12)) := by
  rw [W12_of_ne m ρ c main_arg12 (by decide)]
  dsimp only [W11, W10, W9]
  after_results_simp
  exact at8_arg12 m ρ c
theorem at12_arg13 : W12 m ρ c (Proc.devRef .tc main_arg13) = (m ((c.tc : Thread nD τ).loc main_arg13)) := by
  rw [W12_of_ne m ρ c main_arg13 (by decide)]
  dsimp only [W11, W10, W9]
  after_results_simp
  exact at8_arg13 m ρ c

/-! ## Region 2's input arrays, over region 1's result `W12 m ρ c (Proc.devRef .tc main_v39)` -/

/-- Region 2's row array: the graph aggregation of region 1's result (its padding rows cut off), padded below
    with zero rows. -/
theorem in2_x : V15 m ρ c main_v61 = pad S51200x128 ![0, 0] ![1200, 0] ![0, 0] (graphAgg (extractStridedSlice S50000x128 ![0, 0] (W12 m ρ c (Proc.devRef .tc main_v39)) slices_S51200x128_S50000x128_0_0) (degNorm (m ((c.tc : Thread nD τ).loc main_arg2))) (degNorm (m ((c.tc : Thread nD τ).loc main_arg3))) (m ((c.tc : Thread nD τ).loc main_arg2)) (m ((c.tc : Thread nD τ).loc main_arg3))) (sitofp .f32 (constantI S_ 32 0#32)) pads_S50000x128_S51200x128_012000_000 h_S_ := by
  dsimp only [V15, W15, W14, W13]
  after_results_simp
  rw [at12_v10 m ρ c, at12_v12 m ρ c, at12_arg2 m ρ c, at12_arg3 m ρ c]
  unfold graphAgg gatherIdx
  rfl

/-- Region 2's weight array: layer 1 of the stacked graph-convolution weights. -/
theorem in2_w : V15 m ρ c main_v58 = fun i => shapeCast S128x128 (extractStridedSlice S1x128x128 ![1, 0, 0] (m ((c.tc : Thread nD τ).loc main_arg8)) slices_S2x128x128_S1x128x128_1_0_0) shapeCasts_S1x128x128_S128x128 i := by
  dsimp only [V15, W15, W14, W13]
  after_results_simp
  rw [at12_arg8 m ρ c]
  rfl

/-- Region 2's bias array: layer 1 of the stacked graph-convolution biases, as one row. -/
theorem in2_b : V15 m ρ c main_v62 = fun i => shapeCast S1x128 (fun i => shapeCast S128 (extractStridedSlice S1x128 ![1, 0] (m ((c.tc : Thread nD τ).loc main_arg9)) slices_S2x128_S1x128_1_0) shapeCasts_S1x128_S128 i) shapeCasts_S128_S1x128 i := by
  dsimp only [V15, W15, W14, W13]
  after_results_simp
  rw [at12_arg9 m ρ c]
  rfl

/-! ## The values later stretches read, at region 2's exit -/

theorem at16_arg2 : W16 m ρ c (Proc.devRef .tc main_arg2) = (m ((c.tc : Thread nD τ).loc main_arg2)) := by
  rw [W16_of_ne m ρ c main_arg2 (by decide)]
  dsimp only [W15, W14, W13]
  after_results_simp
  exact at12_arg2 m ρ c
theorem at16_arg3 : W16 m ρ c (Proc.devRef .tc main_arg3) = (m ((c.tc : Thread nD τ).loc main_arg3)) := by
  rw [W16_of_ne m ρ c main_arg3 (by decide)]
  dsimp only [W15, W14, W13]
  after_results_simp
  exact at12_arg3 m ρ c
theorem at16_arg10 : W16 m ρ c (Proc.devRef .tc main_arg10) = (m ((c.tc : Thread nD τ).loc main_arg10)) := by
  rw [W16_of_ne m ρ c main_arg10 (by decide)]
  dsimp only [W15, W14, W13]
  after_results_simp
  exact at12_arg10 m ρ c
theorem at16_arg11 : W16 m ρ c (Proc.devRef .tc main_arg11) = (m ((c.tc : Thread nD τ).loc main_arg11)) := by
  rw [W16_of_ne m ρ c main_arg11 (by decide)]
  dsimp only [W15, W14, W13]
  after_results_simp
  exact at12_arg11 m ρ c
theorem at16_arg12 : W16 m ρ c (Proc.devRef .tc main_arg12) = (m ((c.tc : Thread nD τ).loc main_arg12)) := by
  rw [W16_of_ne m ρ c main_arg12 (by decide)]
  dsimp only [W15, W14, W13]
  after_results_simp
  exact at12_arg12 m ρ c
theorem at16_arg13 : W16 m ρ c (Proc.devRef .tc main_arg13) = (m ((c.tc : Thread nD τ).loc main_arg13)) := by
  rw [W16_of_ne m ρ c main_arg13 (by decide)]
  dsimp only [W15, W14, W13]
  after_results_simp
  exact at12_arg13 m ρ c

/-! ## Region 3's input arrays, over region 2's result `W16 m ρ c (Proc.devRef .tc main_v63)` -/

/-- Region 3's row array: per edge, the sum of region 2's result rows (its padding rows cut off) at the source and at
    the destination, padded below with zero rows. -/
theorem in3_x : V19 m ρ c main_v80 = pad S802816x128 ![0, 0] ![2816, 0] ![0, 0] (addf (Host.gather gather_S50000x128_S800000x1_S800000x128_1_0_n_n_0_1_1128 (extractStridedSlice S50000x128 ![0, 0] (W16 m ρ c (Proc.devRef .tc main_v63)) slices_S51200x128_S50000x128_0_0) (broadcastInDim S800000x1 ![0] bcast_S800000_S800000x1_0 (gatherIdx (m ((c.tc : Thread nD τ).loc main_arg2))))) (Host.gather gather_S50000x128_S800000x1_S800000x128_1_0_n_n_0_1_1128 (extractStridedSlice S50000x128 ![0, 0] (W16 m ρ c (Proc.devRef .tc main_v63)) slices_S51200x128_S50000x128_0_0) (broadcastInDim S800000x1 ![0] bcast_S800000_S800000x1_0 (gatherIdx (m ((c.tc : Thread nD τ).loc main_arg3)))))) (sitofp .f32 (constantI S_ 32 0#32)) pads_S800000x128_S802816x128_028160_000 h_S_ := by
  dsimp only [V19, W19, W18, W17]
  after_results_simp
  rw [at16_arg2 m ρ c, at16_arg3 m ρ c]
  unfold gatherIdx
  rfl

/-- Region 3's weight array: the first output-layer weights as launched. -/
theorem in3_w : V19 m ρ c main_arg10 = (m ((c.tc : Thread nD τ).loc main_arg10)) := by
  dsimp only [V19, W19, W18, W17]
  after_results_simp
  exact at16_arg10 m ρ c

/-- Region 3's bias array: the first output-layer bias as one row. -/
theorem in3_b : V19 m ρ c main_v81 = fun i => shapeCast S1x128 (m ((c.tc : Thread nD τ).loc main_arg11)) shapeCasts_S128_S1x128 i := by
  dsimp only [V19, W19, W18, W17]
  after_results_simp
  rw [at16_arg11 m ρ c]
  rfl

/-! ## The values the last stretches read, at region 3's exit -/

theorem at20_arg12 : W20 m ρ c (Proc.devRef .tc main_arg12) = (m ((c.tc : Thread nD τ).loc main_arg12)) := by
  rw [W20_of_ne m ρ c main_arg12 (by decide)]
  dsimp only [W19, W18, W17]
  after_results_simp
  exact at16_arg12 m ρ c
theorem at20_arg13 : W20 m ρ c (Proc.devRef .tc main_arg13) = (m ((c.tc : Thread nD τ).loc main_arg13)) := by
  rw [W20_of_ne m ρ c main_arg13 (by decide)]
  dsimp only [W19, W18, W17]
  after_results_simp
  exact at16_arg13 m ρ c

/-! ## Region 4's input arrays, over region 3's result `W20 m ρ c (Proc.devRef .tc main_v82)` -/

/-- Region 4's row array: region 3's result with its padding rows cut off, padded below with zero rows. -/
theorem in4_x : V23 m ρ c main_v84 = pad S802816x128 ![0, 0] ![2816, 0] ![0, 0] (extractStridedSlice S800000x128 ![0, 0] (W20 m ρ c (Proc.devRef .tc main_v82)) slices_S802816x128_S800000x128_0_0) (sitofp .f32 (constantI S_ 32 0#32)) pads_S800000x128_S802816x128_028160_000 h_S_ := by
  dsimp only [V23, W23, W22, W21]
  after_results_simp
  rfl

/-- Region 4's weight array: the second output-layer weights as launched. -/
theorem in4_w : V23 m ρ c main_arg12 = (m ((c.tc : Thread nD τ).loc main_arg12)) := by
  dsimp only [V23, W23, W22, W21]
  after_results_simp
  exact at20_arg12 m ρ c

/-- Region 4's bias array: the second output-layer bias as one row. -/
theorem in4_b : V23 m ρ c main_v85 = fun i => shapeCast S1x1 (m ((c.tc : Thread nD τ).loc main_arg13)) shapeCasts_S1_S1x1 i := by
  dsimp only [V23, W23, W22, W21]
  after_results_simp
  rw [at20_arg13 m ρ c]
  rfl

/-! ## The result -/

/-- The result array: region 4's result with its padding rows cut off. -/
theorem out : W25 m ρ c (Proc.devRef .tc main_v87) = extractStridedSlice S800000x1 ![0, 0] (W24 m ρ c (Proc.devRef .tc main_v86)) slices_S802816x1_S800000x1_0_0 := by
  dsimp only [W25]
  after_results_simp

end Cert.KernelIdeal.Chain

end
-- ==== Proof.LinSpec.lean ====
/-
  The layer every one of the kernel's five tiled calls computes, written once, index by index, on the extended reals:
  row `r`, column `q` of `x · w + b` is the sum over the contracted axis `k` of `x r k * w k q`, plus the bias row's
  entry `b 0 q`; `linRelu` is its positive part. The extents are parameters, so one definition serves the node
  embedding (4 → 128), the two graph-convolution weights (128 → 128 on 51200 padded rows), and the two layers of the
  edge read-out (128 → 128 and 128 → 1 on 802816 padded rows).
-/
import Idealize.ShloMosaic.PureOps.Ideal
import Idealize.ShloMosaic.Lib.ValueIdx

noncomputable section

open scoped BigOperators

namespace Cert.Lin

open Idealize.ShloMosaic Idealize.ShloMosaic.ValueIdx

/-- `(x · w + b) r q = ∑ k, x r k * w k q + b 0 q`, on the extended reals. -/
def lin {M K N : Nat} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, x (ix2 (n0 := M) (i 0) k) * w (ix2 k (n1 := N) (i 1))) + b (ix2 (0 : Fin 1) (n1 := N) (i 1))

/-- The positive part of `lin`: `max (x · w + b) 0`, entry by entry. -/
def linRelu {M K N : Nat} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => max (lin x w b i) 0

theorem lin_apply {M K N : Nat} (x : FVec Ideal ⟨2, ![M, K]⟩ .f32) (w : FVec Ideal ⟨2, ![K, N]⟩ .f32)
    (b : FVec Ideal ⟨2, ![1, N]⟩ .f32) (r : Fin M) (q : Fin N) :
    lin x w b (ix2 r q) = (∑ k : Fin K, x (ix2 r k) * w (ix2 k q)) + b (ix2 (0 : Fin 1) q) := rfl

theorem linRelu_apply {M K N : Nat} (x : FVec Ideal ⟨2, ![M, K]⟩ .f32) (w : FVec Ideal ⟨2, ![K, N]⟩ .f32)
    (b : FVec Ideal ⟨2, ![1, N]⟩ .f32) (r : Fin M) (q : Fin N) :
    linRelu x w b (ix2 r q) = max ((∑ k : Fin K, x (ix2 r k) * w (ix2 k q)) + b (ix2 (0 : Fin 1) q)) 0 := rfl

end Cert.Lin

end
-- ==== Proof.Layer0.lean ====
/-
  Tiled call 0 of the kernel's five (the node embedding, 4 → 128 features): its output array, whole, as one function of its three input arrays.
  The grid has 25 points; point `t` loads rows `t · 2048 … t · 2048 + 2047` of the padded 51200 × 4 input, the whole
  4 × 128 weight and the 1 × 128 bias row, and stores into rows `t · 2048 …` of the 51200 × 128 output the block's rows times
  the weight plus the bias. On the extended reals the two roundings to bf16 in front of the product are the identity and
  the product into a zero accumulator is the plain sum over the contracted axis, so entry `(p, q)` of the stored block is
  `∑ k, x (t · 2048 + p, k) · w (k, q) + b (0, q)`: block `t` of `Cert.Lin.lin` of the arrays as the call finds them. The 25 blocks
  tile the output's rows (25 · 2048 = 51200), so after the call the output array IS that function (`final`).
-/
import proofs.«165604_j8830452760704_1_alg».proof.Proof.Gen.KernelIdeal.Frame
import proofs.«165604_j8830452760704_1_alg».proof.Proof.LinSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat Cfg Window)

/-- The left operand's index at an output entry: the output's row, the contracted coordinate. -/
theorem lhs_0 (i : S2048x128.Idx) (k : dot_S2048x4_S4x128_S2048x128_1_0_0_1_n_n.contr.Idx) : (dot_S2048x4_S4x128_S2048x128_1_0_0_1_n_n.lhsIdx i k 0).val = (i 0).val := by
  unfold DotDims.lhsIdx
  rw [dif_neg (show ¬(0 : Fin S2048x4.rank) ∈ dot_S2048x4_S4x128_S2048x128_1_0_0_1_n_n.lhsBatch by decide), dif_pos (show (0 : Fin S2048x4.rank) ∈ dot_S2048x4_S4x128_S2048x128_1_0_0_1_n_n.lhsNonContracting by decide)]
  rfl
theorem lhs_1 (i : S2048x128.Idx) (k : dot_S2048x4_S4x128_S2048x128_1_0_0_1_n_n.contr.Idx) : (dot_S2048x4_S4x128_S2048x128_1_0_0_1_n_n.lhsIdx i k 1).val = (k ⟨0, by decide⟩).val :=
  dot_S2048x4_S4x128_S2048x128_1_0_0_1_n_n.lhsIdx_val_of_single rfl i k
/-- The right operand's index: the contracted coordinate, the output's column. -/
theorem rhs_0 (i : S2048x128.Idx) (k : dot_S2048x4_S4x128_S2048x128_1_0_0_1_n_n.contr.Idx) : (dot_S2048x4_S4x128_S2048x128_1_0_0_1_n_n.rhsIdx i k 0).val = (k ⟨0, by decide⟩).val :=
  dot_S2048x4_S4x128_S2048x128_1_0_0_1_n_n.rhsIdx_val_of_single rfl i k
theorem rhs_1 (i : S2048x128.Idx) (k : dot_S2048x4_S4x128_S2048x128_1_0_0_1_n_n.contr.Idx) : (dot_S2048x4_S4x128_S2048x128_1_0_0_1_n_n.rhsIdx i k 1).val = (i 1).val := by
  unfold DotDims.rhsIdx
  rw [dif_neg (show ¬(1 : Fin S4x128.rank) ∈ dot_S2048x4_S4x128_S2048x128_1_0_0_1_n_n.rhsBatch by decide), dif_pos (show (1 : Fin S4x128.rank) ∈ dot_S2048x4_S4x128_S2048x128_1_0_0_1_n_n.rhsNonContracting by decide)]
  rfl

/-- The matrix product into a zero accumulator, entry by entry: the sum over the contracted axis. -/
theorem mm_apply (l : FVec Ideal S2048x4 .bf16) (r : FVec Ideal S4x128 .bf16) (p : Fin 2048) (q : Fin 128) :
    matmul dot_S2048x4_S4x128_S2048x128_1_0_0_1_n_n none l r (constant S2048x128 .f32 0x00000000#32) (ix2 p q) = ∑ k : Fin 4, l (ix2 p k) * r (ix2 k q) := by
  show FloatOps.matmul dot_S2048x4_S4x128_S2048x128_1_0_0_1_n_n none l r (constant S2048x128 .f32 0x00000000#32) (ix2 p q) = _
  rw [Ideal.matmul_constant_zero_apply, ← Equiv.sum_comp (contrEquiv1 dot_S2048x4_S4x128_S2048x128_1_0_0_1_n_n 4 rfl rfl).symm]
  refine Finset.sum_congr rfl fun k _ => ?_
  have hk := contrEquiv1_symm_val dot_S2048x4_S4x128_S2048x128_1_0_0_1_n_n 4 rfl rfl k
  have el : dot_S2048x4_S4x128_S2048x128_1_0_0_1_n_n.lhsIdx (ix2 p q) ((contrEquiv1 dot_S2048x4_S4x128_S2048x128_1_0_0_1_n_n 4 rfl rfl).symm k) = ix2 p k := funext fun a => Fin.ext (by
    match a with
    | ⟨0, _⟩ => exact lhs_0 _ _
    | ⟨1, _⟩ => exact (lhs_1 _ _).trans hk)
  have er : dot_S2048x4_S4x128_S2048x128_1_0_0_1_n_n.rhsIdx (ix2 p q) ((contrEquiv1 dot_S2048x4_S4x128_S2048x128_1_0_0_1_n_n 4 rfl rfl).symm k) = ix2 k q := funext fun a => Fin.ext (by
    match a with
    | ⟨0, _⟩ => exact (rhs_0 _ _).trans hk
    | ⟨1, _⟩ => exact rhs_1 _ _)
  rw [el, er]

/-- The bias row broadcast down the rows, entry by entry. -/
theorem bias_apply (x2 : Vec Ideal S1x128 .f32) (h : S1x128.Broadcasts S2048x128) (p : Fin 2048) (q : Fin 128) :
    broadcastTo S2048x128 x2 h (ix2 p q) = x2 (ix2 (0 : Fin 1) q) :=
  broadcastTo_apply x2 h (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- What one grid point's body stores, entry by entry: row `p`, column `q` of the block's rows times the weight, plus
    the bias (the roundings on the way into the product are the identity on extended reals). -/
theorem pay_apply (x0 : Vec Ideal S2048x4 .f32) (x1 : Vec Ideal S4x128 .f32) (x2 : Vec Ideal S1x128 .f32) (p : Fin 2048) (q : Fin 128) :
    k0_pay1 x0 x1 x2 (ix2 p q) = (∑ k : Fin 4, x0 (ix2 p k) * x1 (ix2 k q)) + x2 (ix2 (0 : Fin 1) q) := by
  unfold k0_pay1
  refine (addf_apply _ _ _).trans ?_
  refine congrArg₂ (· + ·) ?_ ?_
  · refine (mm_apply _ _ p q).trans ?_
    refine Finset.sum_congr rfl fun k _ => ?_
    rw [shapeCast_self]
    rfl
  · refine (bias_apply _ _ p q).trans ?_
    rw [shapeCast_self]

theorem hz : (![0, 0] : Fin 2 → Nat) = fun _ => 0 := funext fun a => by fin_cases a <;> rfl

/-- The index maps over the grid: point `t` reads row block `t` of the padded input, the whole weight and the whole
    bias row, and writes row block `t` of the output. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry `(p, k)` of the input's block at point `t` is entry `(t · 2048 + p, k)` of the padded input array. -/
theorem read_x (c : Dev nD) (t : Fin cfg0.N) (p : Fin 2048) (k : Fin 4) (r : Fin 51200) (hr : r.val = t.val * 2048 + p.val) :
    iblk0 V c 0 t (ix2 p k) = V c main_v13 (ix2 r k) := by
  obtain ⟨e0, e1, -⟩ := idx_facts t
  show V c main_v13 (((cfg0.win 0).blk t).view.emb (ix2 p k)) = V c main_v13 (ix2 r k)
  refine congrArg (V c main_v13) (funext fun a => Fin.ext ?_)
  match a with
  | ⟨0, _⟩ => show win0_0.index t (0 : Fin 2) * 2048 + 1 * p.val = r.val; rw [e0, hr]; omega
  | ⟨1, _⟩ => show win0_0.index t (1 : Fin 2) * 4 + 1 * k.val = k.val; rw [e1]; omega

/-- The weight's one block is the weight. -/
theorem read_w (c : Dev nD) (t : Fin cfg0.N) (k : Fin 4) (q : Fin 128) :
    iblk0 V c 1 t (ix2 k q) = V c main_arg6 (ix2 k q) := by
  obtain ⟨-, -, e0, e1, -⟩ := idx_facts t
  show V c main_arg6 (((cfg0.win 1).blk t).view.emb (ix2 k q)) = V c main_arg6 (ix2 k q)
  refine congrArg (V c main_arg6) (funext fun a => Fin.ext ?_)
  match a with
  | ⟨0, _⟩ => show win0_1.index t (0 : Fin 2) * 4 + 1 * k.val = k.val; rw [e0]; omega
  | ⟨1, _⟩ => show win0_1.index t (1 : Fin 2) * 128 + 1 * q.val = q.val; rw [e1]; omega

/-- The bias row's one block is the bias row. -/
theorem read_b (c : Dev nD) (t : Fin cfg0.N) (q : Fin 128) :
    iblk0 V c 2 t (ix2 (0 : Fin 1) q) = V c main_v14 (ix2 (0 : Fin 1) q) := by
  obtain ⟨-, -, -, -, e0, e1, -⟩ := idx_facts t
  show V c main_v14 (((cfg0.win 2).blk t).view.emb (ix2 (0 : Fin 1) q)) = V c main_v14 (ix2 (0 : Fin 1) q)
  refine congrArg (V c main_v14) (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-- What point `t` writes back is block `t` of the layer applied to the whole input arrays. -/
theorem flushed_eq (c : Dev nD) (t : Fin cfg0.N) :
    (dat0 V c).flushed 3 t = ((cfg0.win 3).blk t).view.read (Elt Ideal) (Cert.Lin.lin (V c main_v13) (V c main_arg6) (V c main_v14)) := by
  show (cfg0.win 3).cut (grid0.coords t) ((dat0 V c).after 3 t) = _
  rw [after0_3]
  unfold out0_3
  rw [View.canon_unit_zero hz]
  simp only [View.ld_unit_zero (S := S2048x4) hz, View.ld_unit_zero (S := S4x128) hz, View.ld_unit_zero (S := S1x128) hz]
  obtain ⟨-, -, -, -, -, -, e0, e1⟩ := idx_facts t
  have hN : t.val < 25 := lt_of_lt_of_eq t.isLt (show cfg0.N = 25 from N_0)
  funext j
  obtain ⟨p, q, rfl⟩ : ∃ (p : Fin 2048) (q : Fin 128), j = ix2 p q := ⟨j 0, j 1, eq_ix2 j⟩
  have hemb : ((cfg0.win 3).blk t).view.emb (ix2 p q) = ix2 (⟨t.val * 2048 + p.val, by omega⟩ : Fin 51200) q := by
    funext a; apply Fin.ext
    match a with
    | ⟨0, _⟩ => show win0_3.index t (0 : Fin 2) * 2048 + 1 * p.val = t.val * 2048 + p.val; rw [e0]; omega
    | ⟨1, _⟩ => show win0_3.index t (1 : Fin 2) * 128 + 1 * q.val = q.val; rw [e1]; omega
  show k0_pay1 (iblk0 V c 0 t) (iblk0 V c 1 t) (iblk0 V c 2 t) (ix2 p q) = Cert.Lin.lin (V c main_v13) (V c main_arg6) (V c main_v14) (((cfg0.win 3).blk t).view.emb (ix2 p q))
  rw [hemb]
  refine (pay_apply _ _ _ p q).trans ?_
  refine (Eq.trans ?_ (Cert.Lin.lin_apply _ _ _ _ q).symm)
  rw [read_b V c t q]
  refine congrArg (fun s => s + V c main_v14 (ix2 (0 : Fin 1) q)) ?_
  refine Finset.sum_congr rfl fun k _ => ?_
  rw [read_x V c t p k ⟨t.val * 2048 + p.val, by omega⟩ rfl, read_w V c t k q]

/-- THE OUTPUT ARRAY after the call: the layer of the three input arrays as the call finds them; the blocks of the
    25 grid points tile the output's rows, point `r / 2048` covering row `r`. -/
theorem final (c : Dev nD) : (dat0 V c).arrAt 3 cfg0.N = Cert.Lin.lin (V c main_v13) (V c main_arg6) (V c main_v14) :=
  (dat0 V c).arrAt_eq_of_cover 3 _ (fun t _ => flushed_eq V c t) fun i => by
    have h0 : (i 0).val < 51200 := (i 0).isLt
    have h1 : (i 1).val < 128 := (i 1).isLt
    let t : Fin cfg0.N := ⟨(i 0).val / 2048, by rw [show cfg0.N = 25 from N_0]; omega⟩
    obtain ⟨-, -, -, -, -, -, e0, e1⟩ := idx_facts t
    refine ⟨t, flush0_3 t, ?_⟩
    show i ∈ ((View.whole main_v15).slice (win0_3.rect t)).set
    rw [View.set_slice_whole, Rect.mem_set_unit]
    intro a
    match a with
    | ⟨0, _⟩ => show win0_3.index t (0 : Fin 2) * 2048 ≤ (i 0).val ∧ (i 0).val < win0_3.index t (0 : Fin 2) * 2048 + 2048; rw [e0]; show (i 0).val / 2048 * 2048 ≤ (i 0).val ∧ (i 0).val < (i 0).val / 2048 * 2048 + 2048; omega
    | ⟨1, _⟩ => show win0_3.index t (1 : Fin 2) * 128 ≤ (i 1).val ∧ (i 1).val < win0_3.index t (1 : Fin 2) * 128 + 128; rw [e1]; omega

end Cert.KernelIdeal.Layer0
end
-- ==== Proof.Layer1.lean ====
/-
  Tiled call 1 of the kernel's five (the first graph convolution's weight, bias and relu): its output array, whole, as one function of its three input arrays.
  The grid has 25 points; point `t` loads rows `t · 2048 … t · 2048 + 2047` of the padded 51200 × 128 input, the whole
  128 × 128 weight and the 1 × 128 bias row, and stores into rows `t · 2048 …` of the 51200 × 128 output the block's rows times
  the weight plus the bias, cut below at zero. On the extended reals the two roundings to bf16 in front of the product are the identity and
  the product into a zero accumulator is the plain sum over the contracted axis, so entry `(p, q)` of the stored block is
  `max (∑ k, x (t · 2048 + p, k) · w (k, q) + b (0, q)) 0`: block `t` of `Cert.Lin.linRelu` of the arrays as the call finds them. The 25 blocks
  tile the output's rows (25 · 2048 = 51200), so after the call the output array IS that function (`final`).
-/
import proofs.«165604_j8830452760704_1_alg».proof.Proof.Gen.KernelIdeal.Frame
import proofs.«165604_j8830452760704_1_alg».proof.Proof.LinSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat Cfg Window)

/-- The left operand's index at an output entry: the output's row, the contracted coordinate. -/
theorem lhs_0 (i : S2048x128.Idx) (k : dot_S2048x128_S128x128_S2048x128_1_0_0_1_n_n.contr.Idx) : (dot_S2048x128_S128x128_S2048x128_1_0_0_1_n_n.lhsIdx i k 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_1 (i : S2048x128.Idx) (k : dot_S2048x128_S128x128_S2048x128_1_0_0_1_n_n.contr.Idx) : (dot_S2048x128_S128x128_S2048x128_1_0_0_1_n_n.lhsIdx i k 1).val = (k ⟨0, by decide⟩).val :=
  dot_S2048x128_S128x128_S2048x128_1_0_0_1_n_n.lhsIdx_val_of_single rfl i k
/-- The right operand's index: the contracted coordinate, the output's column. -/
theorem rhs_0 (i : S2048x128.Idx) (k : dot_S2048x128_S128x128_S2048x128_1_0_0_1_n_n.contr.Idx) : (dot_S2048x128_S128x128_S2048x128_1_0_0_1_n_n.rhsIdx i k 0).val = (k ⟨0, by decide⟩).val :=
  dot_S2048x128_S128x128_S2048x128_1_0_0_1_n_n.rhsIdx_val_of_single rfl i k
theorem rhs_1 (i : S2048x128.Idx) (k : dot_S2048x128_S128x128_S2048x128_1_0_0_1_n_n.contr.Idx) : (dot_S2048x128_S128x128_S2048x128_1_0_0_1_n_n.rhsIdx i k 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The matrix product into a zero accumulator, entry by entry: the sum over the contracted axis. -/
theorem mm_apply (l : FVec Ideal S2048x128 .bf16) (r : FVec Ideal S128x128 .bf16) (p : Fin 2048) (q : Fin 128) :
    matmul dot_S2048x128_S128x128_S2048x128_1_0_0_1_n_n none l r (constant S2048x128 .f32 0x00000000#32) (ix2 p q) = ∑ k : Fin 128, l (ix2 p k) * r (ix2 k q) := by
  show FloatOps.matmul dot_S2048x128_S128x128_S2048x128_1_0_0_1_n_n none l r (constant S2048x128 .f32 0x00000000#32) (ix2 p q) = _
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_0 _ _
    | ⟨1, _⟩ => exact (lhs_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the rows, entry by entry. -/
theorem bias_apply (x2 : Vec Ideal S1x128 .f32) (h : S1x128.Broadcasts S2048x128) (p : Fin 2048) (q : Fin 128) :
    broadcastTo S2048x128 x2 h (ix2 p q) = x2 (ix2 (0 : Fin 1) q) :=
  broadcastTo_apply x2 h (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- What one grid point's body stores, entry by entry: row `p`, column `q` of the block's rows times the weight, plus
    the bias, cut at zero (the roundings on the way into the product are the identity on extended reals). -/
theorem pay_apply (x0 : Vec Ideal S2048x128 .f32) (x1 : Vec Ideal S128x128 .f32) (x2 : Vec Ideal S1x128 .f32) (p : Fin 2048) (q : Fin 128) :
    k1_pay1 x0 x1 x2 (ix2 p q) = max ((∑ k : Fin 128, x0 (ix2 p k) * x1 (ix2 k q)) + x2 (ix2 (0 : Fin 1) q)) 0 := by
  unfold k1_pay1
  refine (maximumf_apply _ _ _).trans ?_
  refine congrArg₂ max ?_ ?_
  swap
  · show Ideal.ofBits .f32 0x00000000#32 = 0
    exact Ideal.ofBits_zero_f32
  refine (addf_apply _ _ _).trans ?_
  refine congrArg₂ (· + ·) ?_ ?_
  · refine (mm_apply _ _ p q).trans ?_
    refine Finset.sum_congr rfl fun k _ => ?_
    rw [shapeCast_self]
    rw [shapeCast_self]
    rfl
  · refine (bias_apply _ _ p q).trans ?_
    rw [shapeCast_self]

theorem hz : (![0, 0] : Fin 2 → Nat) = fun _ => 0 := funext fun a => by fin_cases a <;> rfl

/-- The index maps over the grid: point `t` reads row block `t` of the padded input, the whole weight and the whole
    bias row, and writes row block `t` of the output. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry `(p, k)` of the input's block at point `t` is entry `(t · 2048 + p, k)` of the padded input array. -/
theorem read_x (c : Dev nD) (t : Fin cfg1.N) (p : Fin 2048) (k : Fin 128) (r : Fin 51200) (hr : r.val = t.val * 2048 + p.val) :
    iblk1 V c 0 t (ix2 p k) = V c main_v37 (ix2 r k) := by
  obtain ⟨e0, e1, -⟩ := idx_facts t
  show V c main_v37 (((cfg1.win 0).blk t).view.emb (ix2 p k)) = V c main_v37 (ix2 r k)
  refine congrArg (V c main_v37) (funext fun a => Fin.ext ?_)
  match a with
  | ⟨0, _⟩ => show win1_0.index t (0 : Fin 2) * 2048 + 1 * p.val = r.val; rw [e0, hr]; omega
  | ⟨1, _⟩ => show win1_0.index t (1 : Fin 2) * 128 + 1 * k.val = k.val; rw [e1]; omega

/-- The weight's one block is the weight. -/
theorem read_w (c : Dev nD) (t : Fin cfg1.N) (k : Fin 128) (q : Fin 128) :
    iblk1 V c 1 t (ix2 k q) = V c main_v34 (ix2 k q) := by
  obtain ⟨-, -, e0, e1, -⟩ := idx_facts t
  show V c main_v34 (((cfg1.win 1).blk t).view.emb (ix2 k q)) = V c main_v34 (ix2 k q)
  refine congrArg (V c main_v34) (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias row's one block is the bias row. -/
theorem read_b (c : Dev nD) (t : Fin cfg1.N) (q : Fin 128) :
    iblk1 V c 2 t (ix2 (0 : Fin 1) q) = V c main_v38 (ix2 (0 : Fin 1) q) := by
  obtain ⟨-, -, -, -, e0, e1, -⟩ := idx_facts t
  show V c main_v38 (((cfg1.win 2).blk t).view.emb (ix2 (0 : Fin 1) q)) = V c main_v38 (ix2 (0 : Fin 1) q)
  refine congrArg (V c main_v38) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- What point `t` writes back is block `t` of the layer applied to the whole input arrays. -/
theorem flushed_eq (c : Dev nD) (t : Fin cfg1.N) :
    (dat1 V c).flushed 3 t = ((cfg1.win 3).blk t).view.read (Elt Ideal) (Cert.Lin.linRelu (V c main_v37) (V c main_v34) (V c main_v38)) := by
  show (cfg1.win 3).cut (grid1.coords t) ((dat1 V c).after 3 t) = _
  rw [after1_3]
  unfold out1_3
  rw [View.canon_unit_zero hz]
  simp only [View.ld_unit_zero (S := S2048x128) hz, View.ld_unit_zero (S := S128x128) hz, View.ld_unit_zero (S := S1x128) hz]
  obtain ⟨-, -, -, -, -, -, e0, e1⟩ := idx_facts t
  have hN : t.val < 25 := lt_of_lt_of_eq t.isLt (show cfg1.N = 25 from N_1)
  funext j
  obtain ⟨p, q, rfl⟩ : ∃ (p : Fin 2048) (q : Fin 128), j = ix2 p q := ⟨j 0, j 1, eq_ix2 j⟩
  have hemb : ((cfg1.win 3).blk t).view.emb (ix2 p q) = ix2 (⟨t.val * 2048 + p.val, by omega⟩ : Fin 51200) q := by
    funext a; apply Fin.ext
    match a with
    | ⟨0, _⟩ => show win1_3.index t (0 : Fin 2) * 2048 + 1 * p.val = t.val * 2048 + p.val; rw [e0]; omega
    | ⟨1, _⟩ => show win1_3.index t (1 : Fin 2) * 128 + 1 * q.val = q.val; rw [e1]; omega
  show k1_pay1 (iblk1 V c 0 t) (iblk1 V c 1 t) (iblk1 V c 2 t) (ix2 p q) = Cert.Lin.linRelu (V c main_v37) (V c main_v34) (V c main_v38) (((cfg1.win 3).blk t).view.emb (ix2 p q))
  rw [hemb]
  refine (pay_apply _ _ _ p q).trans ?_
  refine (Eq.trans ?_ (Cert.Lin.linRelu_apply _ _ _ _ q).symm)
  rw [read_b V c t q]
  refine congrArg (fun s => max (s + V c main_v38 (ix2 (0 : Fin 1) q)) 0) ?_
  refine Finset.sum_congr rfl fun k _ => ?_
  rw [read_x V c t p k ⟨t.val * 2048 + p.val, by omega⟩ rfl, read_w V c t k q]

/-- THE OUTPUT ARRAY after the call: the layer of the three input arrays as the call finds them; the blocks of the
    25 grid points tile the output's rows, point `r / 2048` covering row `r`. -/
theorem final (c : Dev nD) : (dat1 V c).arrAt 3 cfg1.N = Cert.Lin.linRelu (V c main_v37) (V c main_v34) (V c main_v38) :=
  (dat1 V c).arrAt_eq_of_cover 3 _ (fun t _ => flushed_eq V c t) fun i => by
    have h0 : (i 0).val < 51200 := (i 0).isLt
    have h1 : (i 1).val < 128 := (i 1).isLt
    let t : Fin cfg1.N := ⟨(i 0).val / 2048, by rw [show cfg1.N = 25 from N_1]; omega⟩
    obtain ⟨-, -, -, -, -, -, e0, e1⟩ := idx_facts t
    refine ⟨t, flush1_3 t, ?_⟩
    show i ∈ ((View.whole main_v39).slice (win1_3.rect t)).set
    rw [View.set_slice_whole, Rect.mem_set_unit]
    intro a
    match a with
    | ⟨0, _⟩ => show win1_3.index t (0 : Fin 2) * 2048 ≤ (i 0).val ∧ (i 0).val < win1_3.index t (0 : Fin 2) * 2048 + 2048; rw [e0]; show (i 0).val / 2048 * 2048 ≤ (i 0).val ∧ (i 0).val < (i 0).val / 2048 * 2048 + 2048; omega
    | ⟨1, _⟩ => show win1_3.index t (1 : Fin 2) * 128 ≤ (i 1).val ∧ (i 1).val < win1_3.index t (1 : Fin 2) * 128 + 128; rw [e1]; omega

end Cert.KernelIdeal.Layer1
end
-- ==== Proof.Layer2.lean ====
/-
  Tiled call 2 of the kernel's five (the second graph convolution's weight, bias and relu): its output array, whole, as one function of its three input arrays.
  The grid has 25 points; point `t` loads rows `t · 2048 … t · 2048 + 2047` of the padded 51200 × 128 input, the whole
  128 × 128 weight and the 1 × 128 bias row, and stores into rows `t · 2048 …` of the 51200 × 128 output the block's rows times
  the weight plus the bias, cut below at zero. On the extended reals the two roundings to bf16 in front of the product are the identity and
  the product into a zero accumulator is the plain sum over the contracted axis, so entry `(p, q)` of the stored block is
  `max (∑ k, x (t · 2048 + p, k) · w (k, q) + b (0, q)) 0`: block `t` of `Cert.Lin.linRelu` of the arrays as the call finds them. The 25 blocks
  tile the output's rows (25 · 2048 = 51200), so after the call the output array IS that function (`final`).
-/
import proofs.«165604_j8830452760704_1_alg».proof.Proof.Gen.KernelIdeal.Frame
import proofs.«165604_j8830452760704_1_alg».proof.Proof.LinSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat Cfg Window)

/-- The left operand's index at an output entry: the output's row, the contracted coordinate. -/
theorem lhs_0 (i : S2048x128.Idx) (k : dot_S2048x128_S128x128_S2048x128_1_0_0_1_n_n.contr.Idx) : (dot_S2048x128_S128x128_S2048x128_1_0_0_1_n_n.lhsIdx i k 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_1 (i : S2048x128.Idx) (k : dot_S2048x128_S128x128_S2048x128_1_0_0_1_n_n.contr.Idx) : (dot_S2048x128_S128x128_S2048x128_1_0_0_1_n_n.lhsIdx i k 1).val = (k ⟨0, by decide⟩).val :=
  dot_S2048x128_S128x128_S2048x128_1_0_0_1_n_n.lhsIdx_val_of_single rfl i k
/-- The right operand's index: the contracted coordinate, the output's column. -/
theorem rhs_0 (i : S2048x128.Idx) (k : dot_S2048x128_S128x128_S2048x128_1_0_0_1_n_n.contr.Idx) : (dot_S2048x128_S128x128_S2048x128_1_0_0_1_n_n.rhsIdx i k 0).val = (k ⟨0, by decide⟩).val :=
  dot_S2048x128_S128x128_S2048x128_1_0_0_1_n_n.rhsIdx_val_of_single rfl i k
theorem rhs_1 (i : S2048x128.Idx) (k : dot_S2048x128_S128x128_S2048x128_1_0_0_1_n_n.contr.Idx) : (dot_S2048x128_S128x128_S2048x128_1_0_0_1_n_n.rhsIdx i k 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The matrix product into a zero accumulator, entry by entry: the sum over the contracted axis. -/
theorem mm_apply (l : FVec Ideal S2048x128 .bf16) (r : FVec Ideal S128x128 .bf16) (p : Fin 2048) (q : Fin 128) :
    matmul dot_S2048x128_S128x128_S2048x128_1_0_0_1_n_n none l r (constant S2048x128 .f32 0x00000000#32) (ix2 p q) = ∑ k : Fin 128, l (ix2 p k) * r (ix2 k q) := by
  show FloatOps.matmul dot_S2048x128_S128x128_S2048x128_1_0_0_1_n_n none l r (constant S2048x128 .f32 0x00000000#32) (ix2 p q) = _
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_0 _ _
    | ⟨1, _⟩ => exact (lhs_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the rows, entry by entry. -/
theorem bias_apply (x2 : Vec Ideal S1x128 .f32) (h : S1x128.Broadcasts S2048x128) (p : Fin 2048) (q : Fin 128) :
    broadcastTo S2048x128 x2 h (ix2 p q) = x2 (ix2 (0 : Fin 1) q) :=
  broadcastTo_apply x2 h (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- What one grid point's body stores, entry by entry: row `p`, column `q` of the block's rows times the weight, plus
    the bias, cut at zero (the roundings on the way into the product are the identity on extended reals). -/
theorem pay_apply (x0 : Vec Ideal S2048x128 .f32) (x1 : Vec Ideal S128x128 .f32) (x2 : Vec Ideal S1x128 .f32) (p : Fin 2048) (q : Fin 128) :
    k2_pay1 x0 x1 x2 (ix2 p q) = max ((∑ k : Fin 128, x0 (ix2 p k) * x1 (ix2 k q)) + x2 (ix2 (0 : Fin 1) q)) 0 := by
  unfold k2_pay1
  refine (maximumf_apply _ _ _).trans ?_
  refine congrArg₂ max ?_ ?_
  swap
  · show Ideal.ofBits .f32 0x00000000#32 = 0
    exact Ideal.ofBits_zero_f32
  refine (addf_apply _ _ _).trans ?_
  refine congrArg₂ (· + ·) ?_ ?_
  · refine (mm_apply _ _ p q).trans ?_
    refine Finset.sum_congr rfl fun k _ => ?_
    rw [shapeCast_self]
    rw [shapeCast_self]
    rfl
  · refine (bias_apply _ _ p q).trans ?_
    rw [shapeCast_self]

theorem hz : (![0, 0] : Fin 2 → Nat) = fun _ => 0 := funext fun a => by fin_cases a <;> rfl

/-- The index maps over the grid: point `t` reads row block `t` of the padded input, the whole weight and the whole
    bias row, and writes row block `t` of the output. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Entry `(p, k)` of the input's block at point `t` is entry `(t · 2048 + p, k)` of the padded input array. -/
theorem read_x (c : Dev nD) (t : Fin cfg2.N) (p : Fin 2048) (k : Fin 128) (r : Fin 51200) (hr : r.val = t.val * 2048 + p.val) :
    iblk2 V c 0 t (ix2 p k) = V c main_v61 (ix2 r k) := by
  obtain ⟨e0, e1, -⟩ := idx_facts t
  show V c main_v61 (((cfg2.win 0).blk t).view.emb (ix2 p k)) = V c main_v61 (ix2 r k)
  refine congrArg (V c main_v61) (funext fun a => Fin.ext ?_)
  match a with
  | ⟨0, _⟩ => show win2_0.index t (0 : Fin 2) * 2048 + 1 * p.val = r.val; rw [e0, hr]; omega
  | ⟨1, _⟩ => show win2_0.index t (1 : Fin 2) * 128 + 1 * k.val = k.val; rw [e1]; omega

/-- The weight's one block is the weight. -/
theorem read_w (c : Dev nD) (t : Fin cfg2.N) (k : Fin 128) (q : Fin 128) :
    iblk2 V c 1 t (ix2 k q) = V c main_v58 (ix2 k q) := by
  obtain ⟨-, -, e0, e1, -⟩ := idx_facts t
  show V c main_v58 (((cfg2.win 1).blk t).view.emb (ix2 k q)) = V c main_v58 (ix2 k q)
  refine congrArg (V c main_v58) (funext fun a => Fin.ext ?_)
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- The bias row's one block is the bias row. -/
theorem read_b (c : Dev nD) (t : Fin cfg2.N) (q : Fin 128) :
    iblk2 V c 2 t (ix2 (0 : Fin 1) q) = V c main_v62 (ix2 (0 : Fin 1) q) := by
  obtain ⟨-, -, -, -, e0, e1, -⟩ := idx_facts t
  show V c main_v62 (((cfg2.win 2).blk t).view.emb (ix2 (0 : Fin 1) q)) = V c main_v62 (ix2 (0 : Fin 1) q)
  refine congrArg (V c main_v62) (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- What point `t` writes back is block `t` of the layer applied to the whole input arrays. -/
theorem flushed_eq (c : Dev nD) (t : Fin cfg2.N) :
    (dat2 V c).flushed 3 t = ((cfg2.win 3).blk t).view.read (Elt Ideal) (Cert.Lin.linRelu (V c main_v61) (V c main_v58) (V c main_v62)) := by
  show (cfg2.win 3).cut (grid2.coords t) ((dat2 V c).after 3 t) = _
  rw [after2_3]
  unfold out2_3
  rw [View.canon_unit_zero hz]
  simp only [View.ld_unit_zero (S := S2048x128) hz, View.ld_unit_zero (S := S128x128) hz, View.ld_unit_zero (S := S1x128) hz]
  obtain ⟨-, -, -, -, -, -, e0, e1⟩ := idx_facts t
  have hN : t.val < 25 := lt_of_lt_of_eq t.isLt (show cfg2.N = 25 from N_2)
  funext j
  obtain ⟨p, q, rfl⟩ : ∃ (p : Fin 2048) (q : Fin 128), j = ix2 p q := ⟨j 0, j 1, eq_ix2 j⟩
  have hemb : ((cfg2.win 3).blk t).view.emb (ix2 p q) = ix2 (⟨t.val * 2048 + p.val, by omega⟩ : Fin 51200) q := by
    funext a; apply Fin.ext
    match a with
    | ⟨0, _⟩ => show win2_3.index t (0 : Fin 2) * 2048 + 1 * p.val = t.val * 2048 + p.val; rw [e0]; omega
    | ⟨1, _⟩ => show win2_3.index t (1 : Fin 2) * 128 + 1 * q.val = q.val; rw [e1]; omega
  show k2_pay1 (iblk2 V c 0 t) (iblk2 V c 1 t) (iblk2 V c 2 t) (ix2 p q) = Cert.Lin.linRelu (V c main_v61) (V c main_v58) (V c main_v62) (((cfg2.win 3).blk t).view.emb (ix2 p q))
  rw [hemb]
  refine (pay_apply _ _ _ p q).trans ?_
  refine (Eq.trans ?_ (Cert.Lin.linRelu_apply _ _ _ _ q).symm)
  rw [read_b V c t q]
  refine congrArg (fun s => max (s + V c main_v62 (ix2 (0 : Fin 1) q)) 0) ?_
  refine Finset.sum_congr rfl fun k _ => ?_
  rw [read_x V c t p k ⟨t.val * 2048 + p.val, by omega⟩ rfl, read_w V c t k q]

/-- THE OUTPUT ARRAY after the call: the layer of the three input arrays as the call finds them; the blocks of the
    25 grid points tile the output's rows, point `r / 2048` covering row `r`. -/
theorem final (c : Dev nD) : (dat2 V c).arrAt 3 cfg2.N = Cert.Lin.linRelu (V c main_v61) (V c main_v58) (V c main_v62) :=
  (dat2 V c).arrAt_eq_of_cover 3 _ (fun t _ => flushed_eq V c t) fun i => by
    have h0 : (i 0).val < 51200 := (i 0).isLt
    have h1 : (i 1).val < 128 := (i 1).isLt
    let t : Fin cfg2.N := ⟨(i 0).val / 2048, by rw [show cfg2.N = 25 from N_2]; omega⟩
    obtain ⟨-, -, -, -, -, -, e0, e1⟩ := idx_facts t
    refine ⟨t, flush2_3 t, ?_⟩
    show i ∈ ((View.whole main_v63).slice (win2_3.rect t)).set
    rw [View.set_slice_whole, Rect.mem_set_unit]
    intro a
    match a with
    | ⟨0, _⟩ => show win2_3.index t (0 : Fin 2) * 2048 ≤ (i 0).val ∧ (i 0).val < win2_3.index t (0 : Fin 2) * 2048 + 2048; rw [e0]; show (i 0).val / 2048 * 2048 ≤ (i 0).val ∧ (i 0).val < (i 0).val / 2048 * 2048 + 2048; omega
    | ⟨1, _⟩ => show win2_3.index t (1 : Fin 2) * 128 ≤ (i 1).val ∧ (i 1).val < win2_3.index t (1 : Fin 2) * 128 + 128; rw [e1]; omega

end Cert.KernelIdeal.Layer2
end
-- ==== Proof.Layer3.lean ====
/-
  Tiled call 3 of the kernel's five (the edge read-out's hidden layer with relu): its output array, whole, as one function of its three input arrays.
  The grid has 98 points; point `t` loads rows `t · 8192 … t · 8192 + 8191` of the padded 802816 × 128 input, the whole
  128 × 128 weight and the 1 × 128 bias row, and stores into rows `t · 8192 …` of the 802816 × 128 output the block's rows times
  the weight plus the bias, cut below at zero. On the extended reals the two roundings to bf16 in front of the product are the identity and
  the product into a zero accumulator is the plain sum over the contracted axis, so entry `(p, q)` of the stored block is
  `max (∑ k, x (t · 8192 + p, k) · w (k, q) + b (0, q)) 0`: block `t` of `Cert.Lin.linRelu` of the arrays as the call finds them. The 98 blocks
  tile the output's rows (98 · 8192 = 802816), so after the call the output array IS that function (`final`).
-/
import proofs.«165604_j8830452760704_1_alg».proof.Proof.Gen.KernelIdeal.Frame
import proofs.«165604_j8830452760704_1_alg».proof.Proof.LinSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat Cfg Window)

/-- The left operand's index at an output entry: the output's row, the contracted coordinate. -/
theorem lhs_0 (i : S8192x128.Idx) (k : dot_S8192x128_S128x128_S8192x128_1_0_0_1_n_n.contr.Idx) : (dot_S8192x128_S128x128_S8192x128_1_0_0_1_n_n.lhsIdx i k 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_1 (i : S8192x128.Idx) (k : dot_S8192x128_S128x128_S8192x128_1_0_0_1_n_n.contr.Idx) : (dot_S8192x128_S128x128_S8192x128_1_0_0_1_n_n.lhsIdx i k 1).val = (k ⟨0, by decide⟩).val :=
  dot_S8192x128_S128x128_S8192x128_1_0_0_1_n_n.lhsIdx_val_of_single rfl i k
/-- The right operand's index: the contracted coordinate, the output's column. -/
theorem rhs_0 (i : S8192x128.Idx) (k : dot_S8192x128_S128x128_S8192x128_1_0_0_1_n_n.contr.Idx) : (dot_S8192x128_S128x128_S8192x128_1_0_0_1_n_n.rhsIdx i k 0).val = (k ⟨0, by decide⟩).val :=
  dot_S8192x128_S128x128_S8192x128_1_0_0_1_n_n.rhsIdx_val_of_single rfl i k
theorem rhs_1 (i : S8192x128.Idx) (k : dot_S8192x128_S128x128_S8192x128_1_0_0_1_n_n.contr.Idx) : (dot_S8192x128_S128x128_S8192x128_1_0_0_1_n_n.rhsIdx i k 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The matrix product into a zero accumulator, entry by entry: the sum over the contracted axis. -/
theorem mm_apply (l : FVec Ideal S8192x128 .bf16) (r : FVec Ideal S128x128 .bf16) (p : Fin 8192) (q : Fin 128) :
    matmul dot_S8192x128_S128x128_S8192x128_1_0_0_1_n_n none l r (constant S8192x128 .f32 0x00000000#32) (ix2 p q) = ∑ k : Fin 128, l (ix2 p k) * r (ix2 k q) := by
  show FloatOps.matmul dot_S8192x128_S128x128_S8192x128_1_0_0_1_n_n none l r (constant S8192x128 .f32 0x00000000#32) (ix2 p q) = _
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_0 _ _
    | ⟨1, _⟩ => exact (lhs_1 _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the rows, entry by entry. -/
theorem bias_apply (x2 : Vec Ideal S1x128 .f32) (h : S1x128.Broadcasts S8192x128) (p : Fin 8192) (q : Fin 128) :
    broadcastTo S8192x128 x2 h (ix2 p q) = x2 (ix2 (0 : Fin 1) q) :=
  broadcastTo_apply x2 h (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

/-- What one grid point's body stores, entry by entry: row `p`, column `q` of the block's rows times the weight, plus
    the bias, cut at zero (the roundings on the way into the product are the identity on extended reals). -/
theorem pay_apply (x0 : Vec Ideal S8192x128 .f32) (x1 : Vec Ideal S128x128 .f32) (x2 : Vec Ideal S1x128 .f32) (p : Fin 8192) (q : Fin 128) :
    k3_pay1 x0 x1 x2 (ix2 p q) = max ((∑ k : Fin 128, x0 (ix2 p k) * x1 (ix2 k q)) + x2 (ix2 (0 : Fin 1) q)) 0 := by
  unfold k3_pay1
  refine (maximumf_apply _ _ _).trans ?_
  refine congrArg₂ max ?_ ?_
  swap
  · show Ideal.ofBits .f32 0x00000000#32 = 0
    exact Ideal.ofBits_zero_f32
  refine (addf_apply _ _ _).trans ?_
  refine congrArg₂ (· + ·) ?_ ?_
  · refine (mm_apply _ _ p q).trans ?_
    refine Finset.sum_congr rfl fun k _ => ?_
    rw [shapeCast_self]
    rfl
  · refine (bias_apply _ _ p q).trans ?_
    rw [shapeCast_self]

theorem hz : (![0, 0] : Fin 2 → Nat) = fun _ => 0 := funext fun a => by fin_cases a <;> rfl

/-- The index maps over the grid: point `t` reads row block `t` of the padded input, the whole weight and the whole
    bias row, and writes row block `t` of the output. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- Entry `(p, k)` of the input's block at point `t` is entry `(t · 8192 + p, k)` of the padded input array. -/
theorem read_x (c : Dev nD) (t : Fin cfg3.N) (p : Fin 8192) (k : Fin 128) (r : Fin 802816) (hr : r.val = t.val * 8192 + p.val) :
    iblk3 V c 0 t (ix2 p k) = V c main_v80 (ix2 r k) := by
  obtain ⟨e0, e1, -⟩ := idx_facts t
  show V c main_v80 (((cfg3.win 0).blk t).view.emb (ix2 p k)) = V c main_v80 (ix2 r k)
  refine congrArg (V c main_v80) (funext fun a => Fin.ext ?_)
  match a with
  | ⟨0, _⟩ => show win3_0.index t (0 : Fin 2) * 8192 + 1 * p.val = r.val; rw [e0, hr]; omega
  | ⟨1, _⟩ => show win3_0.index t (1 : Fin 2) * 128 + 1 * k.val = k.val; rw [e1]; omega

/-- The weight's one block is the weight. -/
theorem read_w (c : Dev nD) (t : Fin cfg3.N) (k : Fin 128) (q : Fin 128) :
    iblk3 V c 1 t (ix2 k q) = V c main_arg10 (ix2 k q) := by
  obtain ⟨-, -, e0, e1, -⟩ := idx_facts t
  show V c main_arg10 (((cfg3.win 1).blk t).view.emb (ix2 k q)) = V c main_arg10 (ix2 k q)
  refine congrArg (V c main_arg10) (funext fun a => Fin.ext ?_)
  match a with
  | ⟨0, _⟩ => show win3_1.index t (0 : Fin 2) * 128 + 1 * k.val = k.val; rw [e0]; omega
  | ⟨1, _⟩ => show win3_1.index t (1 : Fin 2) * 128 + 1 * q.val = q.val; rw [e1]; omega

/-- The bias row's one block is the bias row. -/
theorem read_b (c : Dev nD) (t : Fin cfg3.N) (q : Fin 128) :
    iblk3 V c 2 t (ix2 (0 : Fin 1) q) = V c main_v81 (ix2 (0 : Fin 1) q) := by
  obtain ⟨-, -, -, -, e0, e1, -⟩ := idx_facts t
  show V c main_v81 (((cfg3.win 2).blk t).view.emb (ix2 (0 : Fin 1) q)) = V c main_v81 (ix2 (0 : Fin 1) q)
  refine congrArg (V c main_v81) (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

/-- What point `t` writes back is block `t` of the layer applied to the whole input arrays. -/
theorem flushed_eq (c : Dev nD) (t : Fin cfg3.N) :
    (dat3 V c).flushed 3 t = ((cfg3.win 3).blk t).view.read (Elt Ideal) (Cert.Lin.linRelu (V c main_v80) (V c main_arg10) (V c main_v81)) := by
  show (cfg3.win 3).cut (grid3.coords t) ((dat3 V c).after 3 t) = _
  rw [after3_3]
  unfold out3_3
  rw [View.canon_unit_zero hz]
  simp only [View.ld_unit_zero (S := S8192x128) hz, View.ld_unit_zero (S := S128x128) hz, View.ld_unit_zero (S := S1x128) hz]
  obtain ⟨-, -, -, -, -, -, e0, e1⟩ := idx_facts t
  have hN : t.val < 98 := lt_of_lt_of_eq t.isLt (show cfg3.N = 98 from N_3)
  funext j
  obtain ⟨p, q, rfl⟩ : ∃ (p : Fin 8192) (q : Fin 128), j = ix2 p q := ⟨j 0, j 1, eq_ix2 j⟩
  have hemb : ((cfg3.win 3).blk t).view.emb (ix2 p q) = ix2 (⟨t.val * 8192 + p.val, by omega⟩ : Fin 802816) q := by
    funext a; apply Fin.ext
    match a with
    | ⟨0, _⟩ => show win3_3.index t (0 : Fin 2) * 8192 + 1 * p.val = t.val * 8192 + p.val; rw [e0]; omega
    | ⟨1, _⟩ => show win3_3.index t (1 : Fin 2) * 128 + 1 * q.val = q.val; rw [e1]; omega
  show k3_pay1 (iblk3 V c 0 t) (iblk3 V c 1 t) (iblk3 V c 2 t) (ix2 p q) = Cert.Lin.linRelu (V c main_v80) (V c main_arg10) (V c main_v81) (((cfg3.win 3).blk t).view.emb (ix2 p q))
  rw [hemb]
  refine (pay_apply _ _ _ p q).trans ?_
  refine (Eq.trans ?_ (Cert.Lin.linRelu_apply _ _ _ _ q).symm)
  rw [read_b V c t q]
  refine congrArg (fun s => max (s + V c main_v81 (ix2 (0 : Fin 1) q)) 0) ?_
  refine Finset.sum_congr rfl fun k _ => ?_
  rw [read_x V c t p k ⟨t.val * 8192 + p.val, by omega⟩ rfl, read_w V c t k q]

/-- THE OUTPUT ARRAY after the call: the layer of the three input arrays as the call finds them; the blocks of the
    98 grid points tile the output's rows, point `r / 8192` covering row `r`. -/
theorem final (c : Dev nD) : (dat3 V c).arrAt 3 cfg3.N = Cert.Lin.linRelu (V c main_v80) (V c main_arg10) (V c main_v81) :=
  (dat3 V c).arrAt_eq_of_cover 3 _ (fun t _ => flushed_eq V c t) fun i => by
    have h0 : (i 0).val < 802816 := (i 0).isLt
    have h1 : (i 1).val < 128 := (i 1).isLt
    let t : Fin cfg3.N := ⟨(i 0).val / 8192, by rw [show cfg3.N = 98 from N_3]; omega⟩
    obtain ⟨-, -, -, -, -, -, e0, e1⟩ := idx_facts t
    refine ⟨t, flush3_3 t, ?_⟩
    show i ∈ ((View.whole main_v82).slice (win3_3.rect t)).set
    rw [View.set_slice_whole, Rect.mem_set_unit]
    intro a
    match a with
    | ⟨0, _⟩ => show win3_3.index t (0 : Fin 2) * 8192 ≤ (i 0).val ∧ (i 0).val < win3_3.index t (0 : Fin 2) * 8192 + 8192; rw [e0]; show (i 0).val / 8192 * 8192 ≤ (i 0).val ∧ (i 0).val < (i 0).val / 8192 * 8192 + 8192; omega
    | ⟨1, _⟩ => show win3_3.index t (1 : Fin 2) * 128 ≤ (i 1).val ∧ (i 1).val < win3_3.index t (1 : Fin 2) * 128 + 128; rw [e1]; omega

end Cert.KernelIdeal.Layer3
end
-- ==== Proof.Layer4.lean ====
/-
  Tiled call 4 of the kernel's five (the edge read-out's last layer, 128 → 1): its output array, whole, as one function of its three input arrays.
  The grid has 98 points; point `t` loads rows `t · 8192 … t · 8192 + 8191` of the padded 802816 × 128 input, the whole
  128 × 1 weight and the 1 × 1 bias row, and stores into rows `t · 8192 …` of the 802816 × 1 output the block's rows times
  the weight plus the bias. On the extended reals the two roundings to bf16 in front of the product are the identity and
  the product into a zero accumulator is the plain sum over the contracted axis, so entry `(p, q)` of the stored block is
  `∑ k, x (t · 8192 + p, k) · w (k, q) + b (0, q)`: block `t` of `Cert.Lin.lin` of the arrays as the call finds them. The 98 blocks
  tile the output's rows (98 · 8192 = 802816), so after the call the output array IS that function (`final`).
-/
import proofs.«165604_j8830452760704_1_alg».proof.Proof.Gen.KernelIdeal.Frame
import proofs.«165604_j8830452760704_1_alg».proof.Proof.LinSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer4

open Cert.KernelIdeal Cert.KernelIdeal.Gen Idealize.ShloMosaic Idealize.ShloMosaic.TcCoe Idealize.ShloMosaic.ValueIdx Idealize.SL.Sem
open Idealize.ShloMosaic.Pipeline (Dat Cfg Window)

/-- The left operand's index at an output entry: the output's row, the contracted coordinate. -/
theorem lhs_0 (i : S8192x1.Idx) (k : dot_S8192x128_S128x1_S8192x1_1_0_0_1_n_n.contr.Idx) : (dot_S8192x128_S128x1_S8192x1_1_0_0_1_n_n.lhsIdx i k 0).val = (i 0).val := by
  unfold DotDims.lhsIdx
  rw [dif_neg (show ¬(0 : Fin S8192x128.rank) ∈ dot_S8192x128_S128x1_S8192x1_1_0_0_1_n_n.lhsBatch by decide), dif_pos (show (0 : Fin S8192x128.rank) ∈ dot_S8192x128_S128x1_S8192x1_1_0_0_1_n_n.lhsNonContracting by decide)]
  rfl
theorem lhs_1 (i : S8192x1.Idx) (k : dot_S8192x128_S128x1_S8192x1_1_0_0_1_n_n.contr.Idx) : (dot_S8192x128_S128x1_S8192x1_1_0_0_1_n_n.lhsIdx i k 1).val = (k ⟨0, by decide⟩).val :=
  dot_S8192x128_S128x1_S8192x1_1_0_0_1_n_n.lhsIdx_val_of_single rfl i k
/-- The right operand's index: the contracted coordinate, the output's column. -/
theorem rhs_0 (i : S8192x1.Idx) (k : dot_S8192x128_S128x1_S8192x1_1_0_0_1_n_n.contr.Idx) : (dot_S8192x128_S128x1_S8192x1_1_0_0_1_n_n.rhsIdx i k 0).val = (k ⟨0, by decide⟩).val :=
  dot_S8192x128_S128x1_S8192x1_1_0_0_1_n_n.rhsIdx_val_of_single rfl i k
theorem rhs_1 (i : S8192x1.Idx) (k : dot_S8192x128_S128x1_S8192x1_1_0_0_1_n_n.contr.Idx) : (dot_S8192x128_S128x1_S8192x1_1_0_0_1_n_n.rhsIdx i k 1).val = (i 1).val := by
  unfold DotDims.rhsIdx
  rw [dif_neg (show ¬(1 : Fin S128x1.rank) ∈ dot_S8192x128_S128x1_S8192x1_1_0_0_1_n_n.rhsBatch by decide), dif_pos (show (1 : Fin S128x1.rank) ∈ dot_S8192x128_S128x1_S8192x1_1_0_0_1_n_n.rhsNonContracting by decide)]
  rfl

/-- The matrix product into a zero accumulator, entry by entry: the sum over the contracted axis. -/
theorem mm_apply (l : FVec Ideal S8192x128 .bf16) (r : FVec Ideal S128x1 .bf16) (p : Fin 8192) (q : Fin 1) :
    matmul dot_S8192x128_S128x1_S8192x1_1_0_0_1_n_n none l r (constant S8192x1 .f32 0x00000000#32) (ix2 p q) = ∑ k : Fin 128, l (ix2 p k) * r (ix2 k q) := by
  show FloatOps.matmul dot_S8192x128_S128x1_S8192x1_1_0_0_1_n_n none l r (constant S8192x1 .f32 0x00000000#32) (ix2 p q) = _
  rw [Ideal.matmul_constant_zero_apply, ← Equiv.sum_comp (contrEquiv1 dot_S8192x128_S128x1_S8192x1_1_0_0_1_n_n 128 rfl rfl).symm]
  refine Finset.sum_congr rfl fun k _ => ?_
  have hk := contrEquiv1_symm_val dot_S8192x128_S128x1_S8192x1_1_0_0_1_n_n 128 rfl rfl k
  have el : dot_S8192x128_S128x1_S8192x1_1_0_0_1_n_n.lhsIdx (ix2 p q) ((contrEquiv1 dot_S8192x128_S128x1_S8192x1_1_0_0_1_n_n 128 rfl rfl).symm k) = ix2 p k := funext fun a => Fin.ext (by
    match a with
    | ⟨0, _⟩ => exact lhs_0 _ _
    | ⟨1, _⟩ => exact (lhs_1 _ _).trans hk)
  have er : dot_S8192x128_S128x1_S8192x1_1_0_0_1_n_n.rhsIdx (ix2 p q) ((contrEquiv1 dot_S8192x128_S128x1_S8192x1_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the rows, entry by entry. -/
theorem bias_apply (x2 : Vec Ideal S1x1 .f32) (h : S1x1.Broadcasts S8192x1) (p : Fin 8192) (q : Fin 1) :
    broadcastTo S8192x1 x2 h (ix2 p q) = x2 (ix2 (0 : Fin 1) q) :=
  broadcastTo_apply x2 h (ix2 p q) (ix2 (0 : Fin 1) q) (fun a => by
    match a with
    | ⟨0, _⟩ => show 0 = if (1 : Nat) = 1 then 0 else _; rw [if_pos rfl]
    | ⟨1, _⟩ => show q.val = if (1 : Nat) = 1 then 0 else q.val; rw [if_pos rfl]; have := q.isLt; omega)

/-- What one grid point's body stores, entry by entry: row `p`, column `q` of the block's rows times the weight, plus
    the bias (the roundings on the way into the product are the identity on extended reals). -/
theorem pay_apply (x0 : Vec Ideal S8192x128 .f32) (x1 : Vec Ideal S128x1 .f32) (x2 : Vec Ideal S1x1 .f32) (p : Fin 8192) (q : Fin 1) :
    k4_pay1 x0 x1 x2 (ix2 p q) = (∑ k : Fin 128, x0 (ix2 p k) * x1 (ix2 k q)) + x2 (ix2 (0 : Fin 1) q) := by
  unfold k4_pay1
  refine (addf_apply _ _ _).trans ?_
  refine congrArg₂ (· + ·) ?_ ?_
  · refine (mm_apply _ _ p q).trans ?_
    refine Finset.sum_congr rfl fun k _ => ?_
    rw [shapeCast_self]
    rfl
  · refine (bias_apply _ _ p q).trans ?_
    rw [shapeCast_self]

theorem hz : (![0, 0] : Fin 2 → Nat) = fun _ => 0 := funext fun a => by fin_cases a <;> rfl

/-- The index maps over the grid: point `t` reads row block `t` of the padded input, the whole weight and the whole
    bias row, and writes row block `t` of the output. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- Entry `(p, k)` of the input's block at point `t` is entry `(t · 8192 + p, k)` of the padded input array. -/
theorem read_x (c : Dev nD) (t : Fin cfg4.N) (p : Fin 8192) (k : Fin 128) (r : Fin 802816) (hr : r.val = t.val * 8192 + p.val) :
    iblk4 V c 0 t (ix2 p k) = V c main_v84 (ix2 r k) := by
  obtain ⟨e0, e1, -⟩ := idx_facts t
  show V c main_v84 (((cfg4.win 0).blk t).view.emb (ix2 p k)) = V c main_v84 (ix2 r k)
  refine congrArg (V c main_v84) (funext fun a => Fin.ext ?_)
  match a with
  | ⟨0, _⟩ => show win4_0.index t (0 : Fin 2) * 8192 + 1 * p.val = r.val; rw [e0, hr]; omega
  | ⟨1, _⟩ => show win4_0.index t (1 : Fin 2) * 128 + 1 * k.val = k.val; rw [e1]; omega

/-- The weight's one block is the weight. -/
theorem read_w (c : Dev nD) (t : Fin cfg4.N) (k : Fin 128) (q : Fin 1) :
    iblk4 V c 1 t (ix2 k q) = V c main_arg12 (ix2 k q) := by
  obtain ⟨-, -, e0, e1, -⟩ := idx_facts t
  show V c main_arg12 (((cfg4.win 1).blk t).view.emb (ix2 k q)) = V c main_arg12 (ix2 k q)
  refine congrArg (V c main_arg12) (funext fun a => Fin.ext ?_)
  match a with
  | ⟨0, _⟩ => show win4_1.index t (0 : Fin 2) * 128 + 1 * k.val = k.val; rw [e0]; omega
  | ⟨1, _⟩ => show win4_1.index t (1 : Fin 2) * 1 + 1 * q.val = q.val; rw [e1]; omega

/-- The bias row's one block is the bias row. -/
theorem read_b (c : Dev nD) (t : Fin cfg4.N) (q : Fin 1) :
    iblk4 V c 2 t (ix2 (0 : Fin 1) q) = V c main_v85 (ix2 (0 : Fin 1) q) := by
  obtain ⟨-, -, -, -, e0, e1, -⟩ := idx_facts t
  show V c main_v85 (((cfg4.win 2).blk t).view.emb (ix2 (0 : Fin 1) q)) = V c main_v85 (ix2 (0 : Fin 1) q)
  refine congrArg (V c main_v85) (funext fun a => Fin.ext ?_)
  match a with
  | ⟨0, _⟩ => show win4_2.index t (0 : Fin 2) * 1 + 1 * 0 = 0; rw [e0]
  | ⟨1, _⟩ => show win4_2.index t (1 : Fin 2) * 1 + 1 * q.val = q.val; rw [e1]; omega

/-- What point `t` writes back is block `t` of the layer applied to the whole input arrays. -/
theorem flushed_eq (c : Dev nD) (t : Fin cfg4.N) :
    (dat4 V c).flushed 3 t = ((cfg4.win 3).blk t).view.read (Elt Ideal) (Cert.Lin.lin (V c main_v84) (V c main_arg12) (V c main_v85)) := by
  show (cfg4.win 3).cut (grid4.coords t) ((dat4 V c).after 3 t) = _
  rw [after4_3]
  unfold out4_3
  rw [View.canon_unit_zero hz]
  simp only [View.ld_unit_zero (S := S8192x128) hz, View.ld_unit_zero (S := S128x1) hz, View.ld_unit_zero (S := S1x1) hz]
  obtain ⟨-, -, -, -, -, -, e0, e1⟩ := idx_facts t
  have hN : t.val < 98 := lt_of_lt_of_eq t.isLt (show cfg4.N = 98 from N_4)
  funext j
  obtain ⟨p, q, rfl⟩ : ∃ (p : Fin 8192) (q : Fin 1), j = ix2 p q := ⟨j 0, j 1, eq_ix2 j⟩
  have hemb : ((cfg4.win 3).blk t).view.emb (ix2 p q) = ix2 (⟨t.val * 8192 + p.val, by omega⟩ : Fin 802816) q := by
    funext a; apply Fin.ext
    match a with
    | ⟨0, _⟩ => show win4_3.index t (0 : Fin 2) * 8192 + 1 * p.val = t.val * 8192 + p.val; rw [e0]; omega
    | ⟨1, _⟩ => show win4_3.index t (1 : Fin 2) * 1 + 1 * q.val = q.val; rw [e1]; omega
  show k4_pay1 (iblk4 V c 0 t) (iblk4 V c 1 t) (iblk4 V c 2 t) (ix2 p q) = Cert.Lin.lin (V c main_v84) (V c main_arg12) (V c main_v85) (((cfg4.win 3).blk t).view.emb (ix2 p q))
  rw [hemb]
  refine (pay_apply _ _ _ p q).trans ?_
  refine (Eq.trans ?_ (Cert.Lin.lin_apply _ _ _ _ q).symm)
  rw [read_b V c t q]
  refine congrArg (fun s => s + V c main_v85 (ix2 (0 : Fin 1) q)) ?_
  refine Finset.sum_congr rfl fun k _ => ?_
  rw [read_x V c t p k ⟨t.val * 8192 + p.val, by omega⟩ rfl, read_w V c t k q]

/-- THE OUTPUT ARRAY after the call: the layer of the three input arrays as the call finds them; the blocks of the
    98 grid points tile the output's rows, point `r / 8192` covering row `r`. -/
theorem final (c : Dev nD) : (dat4 V c).arrAt 3 cfg4.N = Cert.Lin.lin (V c main_v84) (V c main_arg12) (V c main_v85) :=
  (dat4 V c).arrAt_eq_of_cover 3 _ (fun t _ => flushed_eq V c t) fun i => by
    have h0 : (i 0).val < 802816 := (i 0).isLt
    have h1 : (i 1).val < 1 := (i 1).isLt
    let t : Fin cfg4.N := ⟨(i 0).val / 8192, by rw [show cfg4.N = 98 from N_4]; omega⟩
    obtain ⟨-, -, -, -, -, -, e0, e1⟩ := idx_facts t
    refine ⟨t, flush4_3 t, ?_⟩
    show i ∈ ((View.whole main_v86).slice (win4_3.rect t)).set
    rw [View.set_slice_whole, Rect.mem_set_unit]
    intro a
    match a with
    | ⟨0, _⟩ => show win4_3.index t (0 : Fin 2) * 8192 ≤ (i 0).val ∧ (i 0).val < win4_3.index t (0 : Fin 2) * 8192 + 8192; rw [e0]; show (i 0).val / 8192 * 8192 ≤ (i 0).val ∧ (i 0).val < (i 0).val / 8192 * 8192 + 8192; omega
    | ⟨1, _⟩ => show win4_3.index t (1 : Fin 2) * 1 ≤ (i 1).val ∧ (i 1).val < win4_3.index t (1 : Fin 2) * 1 + 1; rw [e1]; omega

end Cert.KernelIdeal.Layer4
end
-- ==== Proof.LinHost0.lean ====
/-
  The node embedding layer, host side: pad the 50000 rows of `x` up to 51200 with any scalar, apply the layer
  `x · w + b` (bias as one row) to the padded array, keep the first 50000 rows. Row `r < 50000` of the layer reads only
  row `r` of the padded array, which is row `r` of `x`, so the result is `x · w + b` on the unpadded array, whatever
  the padding scalar; both sides read at `(r, q)` are `∑ k, x r k * w k q + b q`.
-/
import proofs.«165604_j8830452760704_1_alg».proof.Proof.Gen.ReferenceIdeal.Read
import proofs.«165604_j8830452760704_1_alg».proof.Proof.LinSpec
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.LinHost

open Idealize.ShloMosaic Idealize.ShloMosaic.ValueIdx Cert.ReferenceIdeal Cert.ReferenceIdeal.Gen Cert.ReferenceIdeal.Read

/-- The reference's `x @ w + b` for the node embedding, read at `(r, q)`. -/
theorem ref0_apply (x : FVec Ideal S50000x4 .f32) (w : FVec Ideal S4x128 .f32) (b : FVec Ideal S128 .f32)
    (r : Fin 50000) (q : Fin 128) :
    addf (Host.dotGeneral (F := Ideal) dot_S50000x4_S4x128_S50000x128_1_0_0_1_n_n none x w)
        (broadcastInDim S50000x128 ![0, 1] bcast_S1x128_S50000x128_0_1 (broadcastInDim S1x128 ![1] bcast_S128_S1x128_1 b)) (ix2 r q)
      = (∑ k : Fin 4, x (ix2 r k) * w (ix2 k q)) + b (ix1 q) := by
  show val_main_v20 (F := Ideal) x w b (ix2 r q) = _
  rw [val_main_v20_apply, val_main_v17_apply, val_main_v19_apply, val_main_v18_apply]
  show (∑ k : Fin 4, x (lidx_main_v17 (ix2 r q) k) * w (ridx_main_v17 (ix2 r q) k)) + b (idx_main_v18 (idx_main_v19 (ix2 r q))) = _
  have eb : idx_main_v18 (idx_main_v19 (ix2 r q)) = ix1 q := funext fun a => match a with | ⟨0, _⟩ => rfl
  rw [eb]
  refine congrArg (· + b (ix1 q)) (Finset.sum_congr rfl fun k _ => ?_)
  have el : lidx_main_v17 (ix2 r q) k = ix2 r k := funext fun a => match a with | ⟨0, _⟩ => rfl | ⟨1, _⟩ => rfl
  have er : ridx_main_v17 (ix2 r q) k = ix2 k q := funext fun a => match a with | ⟨0, _⟩ => rfl | ⟨1, _⟩ => rfl
  rw [el, er]

theorem LL0 (x : FVec Ideal S50000x4 .f32) (z : FVec Ideal S_ .f32) (w : FVec Ideal S4x128 .f32) (b : FVec Ideal S128 .f32)
    (hp : S50000x4.Pads (![0, 0] : Fin 2 → Nat) ![1200, 0] ![0, 0] (⟨2, ![51200, 4]⟩ : Shape)) (hu : 0 < S_.numel)
    (hc : S128.ShapeCasts S1x128) (hs : (⟨2, ![51200, 128]⟩ : Shape).Slices ![0, 0] S50000x128) :
    extractStridedSlice S50000x128 ![0, 0]
        (Cert.Lin.lin (pad (⟨2, ![51200, 4]⟩ : Shape) ![0, 0] ![1200, 0] ![0, 0] x z hp hu) w (fun i => shapeCast S1x128 b hc i)) hs
      = addf (Host.dotGeneral (F := Ideal) dot_S50000x4_S4x128_S50000x128_1_0_0_1_n_n none x w)
          (broadcastInDim S50000x128 ![0, 1] bcast_S1x128_S50000x128_0_1 (broadcastInDim S1x128 ![1] bcast_S128_S1x128_1 b)) := by
  funext i
  obtain ⟨r, q, rfl⟩ : ∃ (r : Fin 50000) (q : Fin 128), i = ix2 r q := ⟨i 0, i 1, eq_ix2 i⟩
  rw [ref0_apply]
  have hr : r.val < 51200 := Nat.lt_of_lt_of_le r.isLt (by decide)
  refine (extractStridedSlice_apply (![0, 0] : Fin 2 → Nat) _ hs (ix2 r q) (ix2 (⟨r.val, hr⟩ : Fin 51200) q) (fun a => match a with
    | ⟨0, _⟩ => (Nat.zero_add _).symm
    | ⟨1, _⟩ => (Nat.zero_add _).symm)).trans ?_
  rw [Cert.Lin.lin_apply]
  have eb : shapeCast S1x128 b hc (ix2 (0 : Fin 1) q) = b (ix1 q) :=
    shapeCast_apply b hc (ix2 (0 : Fin 1) q) (ix1 q) (by
      rw [Shape.rowMajor_val_one, Shape.rowMajor_val_two]
      show q.val = 0 * 128 + q.val
      omega)
  refine congrArg₂ (· + ·) (Finset.sum_congr rfl fun k _ => ?_) eb
  refine congrArg (· * w (ix2 k q)) ?_
  exact pad_apply_of_inside (![0, 0] : Fin 2 → Nat) ![1200, 0] ![0, 0] x z hp hu (ix2 (⟨r.val, hr⟩ : Fin 51200) k) (ix2 r k) (fun a => match a with
    | ⟨0, _⟩ => by show r.val = 0 + r.val * (0 + 1); omega
    | ⟨1, _⟩ => by show k.val = 0 + k.val * (0 + 1); omega)

end Cert.LinHost

end
-- ==== Proof.LinHost12.lean ====
/-
  The two graph-convolution weight layers, host side: pad the 50000 rows of `x` up to 51200 with any scalar, apply
  `max (x · w + b) 0` (bias as one row) to the padded array, keep the first 50000 rows. Row `r < 50000` of the layer
  reads only row `r` of the padded array, which is row `r` of `x`, so the result is the positive part of `x · w + b` on
  the unpadded array, whatever the padding scalar; both sides read at `(r, q)` are `max (∑ k, x r k * w k q + b q) 0`.
-/
import proofs.«165604_j8830452760704_1_alg».proof.Proof.Gen.ReferenceIdeal.Read
import proofs.«165604_j8830452760704_1_alg».proof.Proof.LinSpec
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.LinHost

open Idealize.ShloMosaic Idealize.ShloMosaic.ValueIdx Cert.ReferenceIdeal Cert.ReferenceIdeal.Gen Cert.ReferenceIdeal.Read

/-- The reference's `dot_general` of this layer read at `(r, q)`: the sum over the contracted axis of the products. -/
theorem dot12_apply (x : FVec Ideal S50000x128 .f32) (w : FVec Ideal S128x128 .f32) (r : Fin 50000) (q : Fin 128) :
    Host.dotGeneral (F := Ideal) dot_S50000x128_S128x128_S50000x128_1_0_0_1_n_n none x w (ix2 r q) = ∑ k : Fin 128, x (ix2 r k) * w (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact lhs_main_v39_0 _ _
    | ⟨1, _⟩ => exact (lhs_main_v39_1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (rhs_main_v39_0 _ _).trans hk
    | ⟨1, _⟩ => exact rhs_main_v39_1 _ _)
  rw [el, er]

/-- The reference's layer read at `(r, q)`. -/
theorem ref12_apply (x : FVec Ideal S50000x128 .f32) (w : FVec Ideal S128x128 .f32) (b : FVec Ideal S128 .f32)
    (r : Fin 50000) (q : Fin 128) :
    maximumf (addf (Host.dotGeneral (F := Ideal) dot_S50000x128_S128x128_S50000x128_1_0_0_1_n_n none x w)
          (broadcastInDim S50000x128 ![0, 1] bcast_S1x128_S50000x128_0_1 (broadcastInDim S1x128 ![1] bcast_S128_S1x128_1 b)))
          (broadcastInDim S50000x128 ![] bcast_S_S50000x128 (constant (F := Ideal) S_ .f32 0x00000000#32)) (ix2 r q)
      = max ((∑ k : Fin 128, x (ix2 r k) * w (ix2 k q)) + b (ix1 q)) 0 := by
  show max (Host.dotGeneral (F := Ideal) dot_S50000x128_S128x128_S50000x128_1_0_0_1_n_n none x w (ix2 r q) + val_main_v19 (F := Ideal) b (ix2 r q)) (val_main_call2_v0 (F := Ideal) (ix2 r q)) = _
  rw [dot12_apply, val_main_v19_apply, val_main_v18_apply, val_main_call2_v0_apply, val_main_call2_cst_apply]
  have eb : idx_main_v18 (idx_main_v19 (ix2 r q)) = ix1 q := funext fun a => match a with | ⟨0, _⟩ => rfl
  rw [eb]
  show max _ (Ideal.ofBits .f32 0x00000000#32) = _
  rw [Ideal.ofBits_zero_f32]

theorem LL12 (x : FVec Ideal S50000x128 .f32) (z : FVec Ideal S_ .f32) (w : FVec Ideal S128x128 .f32) (b : FVec Ideal S128 .f32)
    (hp : S50000x128.Pads (![0, 0] : Fin 2 → Nat) ![1200, 0] ![0, 0] (⟨2, ![51200, 128]⟩ : Shape)) (hu : 0 < S_.numel)
    (hc : S128.ShapeCasts S1x128) (hs : (⟨2, ![51200, 128]⟩ : Shape).Slices ![0, 0] S50000x128) :
    extractStridedSlice S50000x128 ![0, 0]
        (Cert.Lin.linRelu (pad (⟨2, ![51200, 128]⟩ : Shape) ![0, 0] ![1200, 0] ![0, 0] x z hp hu) w (fun i => shapeCast S1x128 b hc i)) hs
      = maximumf (addf (Host.dotGeneral (F := Ideal) dot_S50000x128_S128x128_S50000x128_1_0_0_1_n_n none x w)
          (broadcastInDim S50000x128 ![0, 1] bcast_S1x128_S50000x128_0_1 (broadcastInDim S1x128 ![1] bcast_S128_S1x128_1 b)))
          (broadcastInDim S50000x128 ![] bcast_S_S50000x128 (constant (F := Ideal) S_ .f32 0x00000000#32)) := by
  funext i
  obtain ⟨r, q, rfl⟩ : ∃ (r : Fin 50000) (q : Fin 128), i = ix2 r q := ⟨i 0, i 1, eq_ix2 i⟩
  rw [ref12_apply]
  have hr : r.val < 51200 := Nat.lt_of_lt_of_le r.isLt (by decide)
  refine (extractStridedSlice_apply (![0, 0] : Fin 2 → Nat) _ hs (ix2 r q) (ix2 (⟨r.val, hr⟩ : Fin 51200) q) (fun a => match a with
    | ⟨0, _⟩ => (Nat.zero_add _).symm
    | ⟨1, _⟩ => (Nat.zero_add _).symm)).trans ?_
  rw [Cert.Lin.linRelu_apply]
  have eb : shapeCast S1x128 b hc (ix2 (0 : Fin 1) q) = b (ix1 q) :=
    shapeCast_apply b hc (ix2 (0 : Fin 1) q) (ix1 q) (by
      rw [Shape.rowMajor_val_one, Shape.rowMajor_val_two]
      show q.val = 0 * 128 + q.val
      omega)
  refine congrArg (max · 0) (congrArg₂ (· + ·) (Finset.sum_congr rfl fun k _ => ?_) eb)
  refine congrArg (· * w (ix2 k q)) ?_
  exact pad_apply_of_inside (![0, 0] : Fin 2 → Nat) ![1200, 0] ![0, 0] x z hp hu (ix2 (⟨r.val, hr⟩ : Fin 51200) k) (ix2 r k) (fun a => match a with
    | ⟨0, _⟩ => by show r.val = 0 + r.val * (0 + 1); omega
    | ⟨1, _⟩ => by show k.val = 0 + k.val * (0 + 1); omega)

end Cert.LinHost

end
-- ==== Proof.LinHost3.lean ====
/-
  The first layer of the edge read-out, host side: pad the 800000 rows of `x` up to 802816 with any scalar, apply
  `max (x · w + b) 0` (bias as one row) to the padded array, keep the first 800000 rows. Row `r < 800000` of the layer
  reads only row `r` of the padded array, which is row `r` of `x`, so the result is the positive part of `x · w + b` on
  the unpadded array, whatever the padding scalar; both sides read at `(r, q)` are `max (∑ k, x r k * w k q + b q) 0`.
-/
import proofs.«165604_j8830452760704_1_alg».proof.Proof.Gen.ReferenceIdeal.Read
import proofs.«165604_j8830452760704_1_alg».proof.Proof.LinSpec
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.LinHost

open Idealize.ShloMosaic Idealize.ShloMosaic.ValueIdx Cert.ReferenceIdeal Cert.ReferenceIdeal.Gen Cert.ReferenceIdeal.Read

/-- The reference's `dot_general` of this layer read at `(r, q)`: the sum over the contracted axis of the products. -/
theorem dot3_apply (x : FVec Ideal S800000x128 .f32) (w : FVec Ideal S128x128 .f32) (r : Fin 800000) (q : Fin 128) :
    Host.dotGeneral (F := Ideal) dot_S800000x128_S128x128_S800000x128_1_0_0_1_n_n none x w (ix2 r q) = ∑ k : Fin 128, x (ix2 r k) * w (ix2 k q) := by
  simp only [Host.dotGeneral]
  rw [Ideal.dotGeneral_apply, ← Equiv.sum_comp (ValueIdx.contrEquiv1 dot_S800000x128_S128x128_S800000x128_1_0_0_1_n_n 128 rfl rfl).symm]
  refine Finset.sum_congr rfl fun k _ => ?_
  have hk := ValueIdx.contrEquiv1_symm_val dot_S800000x128_S128x128_S800000x128_1_0_0_1_n_n 128 rfl rfl k
  have el : dot_S800000x128_S128x128_S800000x128_1_0_0_1_n_n.lhsIdx (ix2 r q) ((ValueIdx.contrEquiv1 dot_S800000x128_S128x128_S800000x128_1_0_0_1_n_n 128 rfl rfl).symm k) = ix2 r k := funext fun a => Fin.ext (by
    match a with
    | ⟨0, _⟩ => exact lhs_main_v86_0 _ _
    | ⟨1, _⟩ => exact (lhs_main_v86_1 _ _).trans hk)
  have er : dot_S800000x128_S128x128_S800000x128_1_0_0_1_n_n.rhsIdx (ix2 r q) ((ValueIdx.contrEquiv1 dot_S800000x128_S128x128_S800000x128_1_0_0_1_n_n 128 rfl rfl).symm k) = ix2 k q := funext fun a => Fin.ext (by
    match a with
    | ⟨0, _⟩ => exact (rhs_main_v86_0 _ _).trans hk
    | ⟨1, _⟩ => exact rhs_main_v86_1 _ _)
  rw [el, er]

/-- The reference's layer read at `(r, q)`. -/
theorem ref3_apply (x : FVec Ideal S800000x128 .f32) (w : FVec Ideal S128x128 .f32) (b : FVec Ideal S128 .f32)
    (r : Fin 800000) (q : Fin 128) :
    maximumf (addf (Host.dotGeneral (F := Ideal) dot_S800000x128_S128x128_S800000x128_1_0_0_1_n_n none x w)
          (broadcastInDim S800000x128 ![0, 1] bcast_S1x128_S800000x128_0_1 (broadcastInDim S1x128 ![1] bcast_S128_S1x128_1 b)))
          (broadcastInDim S800000x128 ![] bcast_S_S800000x128 (constant (F := Ideal) S_ .f32 0x00000000#32)) (ix2 r q)
      = max ((∑ k : Fin 128, x (ix2 r k) * w (ix2 k q)) + b (ix1 q)) 0 := by
  show max (Host.dotGeneral (F := Ideal) dot_S800000x128_S128x128_S800000x128_1_0_0_1_n_n none x w (ix2 r q) + val_main_v88 (F := Ideal) b (ix2 r q)) (val_main_call4_v0 (F := Ideal) (ix2 r q)) = _
  rw [dot3_apply, val_main_v88_apply, val_main_v87_apply, val_main_call4_v0_apply, val_main_call4_cst_apply]
  have eb : idx_main_v87 (idx_main_v88 (ix2 r q)) = ix1 q := funext fun a => match a with | ⟨0, _⟩ => rfl
  rw [eb]
  show max _ (Ideal.ofBits .f32 0x00000000#32) = _
  rw [Ideal.ofBits_zero_f32]

theorem LL3 (x : FVec Ideal S800000x128 .f32) (z : FVec Ideal S_ .f32) (w : FVec Ideal S128x128 .f32) (b : FVec Ideal S128 .f32)
    (hp : S800000x128.Pads (![0, 0] : Fin 2 → Nat) ![2816, 0] ![0, 0] (⟨2, ![802816, 128]⟩ : Shape)) (hu : 0 < S_.numel)
    (hc : S128.ShapeCasts S1x128) (hs : (⟨2, ![802816, 128]⟩ : Shape).Slices ![0, 0] S800000x128) :
    extractStridedSlice S800000x128 ![0, 0]
        (Cert.Lin.linRelu (pad (⟨2, ![802816, 128]⟩ : Shape) ![0, 0] ![2816, 0] ![0, 0] x z hp hu) w (fun i => shapeCast S1x128 b hc i)) hs
      = maximumf (addf (Host.dotGeneral (F := Ideal) dot_S800000x128_S128x128_S800000x128_1_0_0_1_n_n none x w)
          (broadcastInDim S800000x128 ![0, 1] bcast_S1x128_S800000x128_0_1 (broadcastInDim S1x128 ![1] bcast_S128_S1x128_1 b)))
          (broadcastInDim S800000x128 ![] bcast_S_S800000x128 (constant (F := Ideal) S_ .f32 0x00000000#32)) := by
  funext i
  obtain ⟨r, q, rfl⟩ : ∃ (r : Fin 800000) (q : Fin 128), i = ix2 r q := ⟨i 0, i 1, eq_ix2 i⟩
  rw [ref3_apply]
  have hr : r.val < 802816 := Nat.lt_of_lt_of_le r.isLt (by decide)
  refine (extractStridedSlice_apply (![0, 0] : Fin 2 → Nat) _ hs (ix2 r q) (ix2 (⟨r.val, hr⟩ : Fin 802816) q) (fun a => match a with
    | ⟨0, _⟩ => (Nat.zero_add _).symm
    | ⟨1, _⟩ => (Nat.zero_add _).symm)).trans ?_
  rw [Cert.Lin.linRelu_apply]
  have eb : shapeCast S1x128 b hc (ix2 (0 : Fin 1) q) = b (ix1 q) :=
    shapeCast_apply b hc (ix2 (0 : Fin 1) q) (ix1 q) (by
      rw [Shape.rowMajor_val_one, Shape.rowMajor_val_two]
      show q.val = 0 * 128 + q.val
      omega)
  refine congrArg (max · 0) (congrArg₂ (· + ·) (Finset.sum_congr rfl fun k _ => ?_) eb)
  refine congrArg (· * w (ix2 k q)) ?_
  exact pad_apply_of_inside (![0, 0] : Fin 2 → Nat) ![2816, 0] ![0, 0] x z hp hu (ix2 (⟨r.val, hr⟩ : Fin 802816) k) (ix2 r k) (fun a => match a with
    | ⟨0, _⟩ => by show r.val = 0 + r.val * (0 + 1); omega
    | ⟨1, _⟩ => by show k.val = 0 + k.val * (0 + 1); omega)

end Cert.LinHost

end
-- ==== Proof.LinHost4.lean ====
/-
  The second layer of the edge read-out, host side: pad the 800000 rows of `x` up to 802816 with any scalar, apply
  `x · w + b` (one output column, bias as a one-by-one array) to the padded array, keep the first 800000 rows. Row
  `r < 800000` of the layer reads only row `r` of the padded array, which is row `r` of `x`, so the result is
  `x · w + b` on the unpadded array, whatever the padding scalar; both sides read at `(r, q)` are
  `∑ k, x r k * w k q + b q`.
-/
import proofs.«165604_j8830452760704_1_alg».proof.Proof.Gen.ReferenceIdeal.Read
import proofs.«165604_j8830452760704_1_alg».proof.Proof.LinSpec
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.LinHost

open Idealize.ShloMosaic Idealize.ShloMosaic.ValueIdx Cert.ReferenceIdeal Cert.ReferenceIdeal.Gen Cert.ReferenceIdeal.Read

/-- The reference's `dot_general` of this layer read at `(r, q)`: the sum over the contracted axis of the products. -/
theorem dot4_apply (x : FVec Ideal S800000x128 .f32) (w : FVec Ideal S128x1 .f32) (r : Fin 800000) (q : Fin 1) :
    Host.dotGeneral (F := Ideal) dot_S800000x128_S128x1_S800000x1_1_0_0_1_n_n none x w (ix2 r q) = ∑ k : Fin 128, x (ix2 r k) * w (ix2 k q) := by
  simp only [Host.dotGeneral]
  rw [Ideal.dotGeneral_apply, ← Equiv.sum_comp (ValueIdx.contrEquiv1 dot_S800000x128_S128x1_S800000x1_1_0_0_1_n_n 128 rfl rfl).symm]
  refine Finset.sum_congr rfl fun k _ => ?_
  have hk := ValueIdx.contrEquiv1_symm_val dot_S800000x128_S128x1_S800000x1_1_0_0_1_n_n 128 rfl rfl k
  have el : dot_S800000x128_S128x1_S800000x1_1_0_0_1_n_n.lhsIdx (ix2 r q) ((ValueIdx.contrEquiv1 dot_S800000x128_S128x1_S800000x1_1_0_0_1_n_n 128 rfl rfl).symm k) = ix2 r k := funext fun a => Fin.ext (by
    match a with
    | ⟨0, _⟩ => exact lhs_main_v91_0 _ _
    | ⟨1, _⟩ => exact (lhs_main_v91_1 _ _).trans hk)
  have er : dot_S800000x128_S128x1_S800000x1_1_0_0_1_n_n.rhsIdx (ix2 r q) ((ValueIdx.contrEquiv1 dot_S800000x128_S128x1_S800000x1_1_0_0_1_n_n 128 rfl rfl).symm k) = ix2 k q := funext fun a => Fin.ext (by
    match a with
    | ⟨0, _⟩ => exact (rhs_main_v91_0 _ _).trans hk
    | ⟨1, _⟩ => exact rhs_main_v91_1 _ _)
  rw [el, er]

/-- The reference's layer read at `(r, q)`. -/
theorem ref4_apply (x : FVec Ideal S800000x128 .f32) (w : FVec Ideal S128x1 .f32) (b : FVec Ideal S1 .f32)
    (r : Fin 800000) (q : Fin 1) :
    addf (Host.dotGeneral (F := Ideal) dot_S800000x128_S128x1_S800000x1_1_0_0_1_n_n none x w)
          (broadcastInDim S800000x1 ![0, 1] bcast_S1x1_S800000x1_0_1 (broadcastInDim S1x1 ![1] bcast_S1_S1x1_1 b)) (ix2 r q)
      = (∑ k : Fin 128, x (ix2 r k) * w (ix2 k q)) + b (ix1 q) := by
  show Host.dotGeneral (F := Ideal) dot_S800000x128_S128x1_S800000x1_1_0_0_1_n_n none x w (ix2 r q) + val_main_v93 (F := Ideal) b (ix2 r q) = _
  rw [dot4_apply, val_main_v93_apply, val_main_v92_apply]
  have eb : idx_main_v92 (idx_main_v93 (ix2 r q)) = ix1 q := funext fun a => match a with | ⟨0, _⟩ => Fin.ext (by show 0 = q.val; have := q.isLt; omega)
  rw [eb]

theorem LL4 (x : FVec Ideal S800000x128 .f32) (z : FVec Ideal S_ .f32) (w : FVec Ideal S128x1 .f32) (b : FVec Ideal S1 .f32)
    (hp : S800000x128.Pads (![0, 0] : Fin 2 → Nat) ![2816, 0] ![0, 0] (⟨2, ![802816, 128]⟩ : Shape)) (hu : 0 < S_.numel)
    (hc : S1.ShapeCasts S1x1) (hs : (⟨2, ![802816, 1]⟩ : Shape).Slices ![0, 0] S800000x1) :
    extractStridedSlice S800000x1 ![0, 0]
        (Cert.Lin.lin (pad (⟨2, ![802816, 128]⟩ : Shape) ![0, 0] ![2816, 0] ![0, 0] x z hp hu) w (fun i => shapeCast S1x1 b hc i)) hs
      = addf (Host.dotGeneral (F := Ideal) dot_S800000x128_S128x1_S800000x1_1_0_0_1_n_n none x w)
          (broadcastInDim S800000x1 ![0, 1] bcast_S1x1_S800000x1_0_1 (broadcastInDim S1x1 ![1] bcast_S1_S1x1_1 b)) := by
  funext i
  obtain ⟨r, q, rfl⟩ : ∃ (r : Fin 800000) (q : Fin 1), i = ix2 r q := ⟨i 0, i 1, eq_ix2 i⟩
  rw [ref4_apply]
  have hr : r.val < 802816 := Nat.lt_of_lt_of_le r.isLt (by decide)
  refine (extractStridedSlice_apply (![0, 0] : Fin 2 → Nat) _ hs (ix2 r q) (ix2 (⟨r.val, hr⟩ : Fin 802816) q) (fun a => match a with
    | ⟨0, _⟩ => (Nat.zero_add _).symm
    | ⟨1, _⟩ => (Nat.zero_add _).symm)).trans ?_
  rw [Cert.Lin.lin_apply]
  have eb : shapeCast S1x1 b hc (ix2 (0 : Fin 1) q) = b (ix1 q) :=
    shapeCast_apply b hc (ix2 (0 : Fin 1) q) (ix1 q) (by
      rw [Shape.rowMajor_val_one, Shape.rowMajor_val_two]
      show q.val = 0 * 1 + q.val
      omega)
  refine (congrArg₂ (· + ·) (Finset.sum_congr rfl fun k _ => ?_) eb)
  refine congrArg (· * w (ix2 k q)) ?_
  exact pad_apply_of_inside (![0, 0] : Fin 2 → Nat) ![2816, 0] ![0, 0] x z hp hu (ix2 (⟨r.val, hr⟩ : Fin 802816) k) (ix2 r k) (fun a => match a with
    | ⟨0, _⟩ => by show r.val = 0 + r.val * (0 + 1); omega
    | ⟨1, _⟩ => by show k.val = 0 + k.val * (0 + 1); omega)

end Cert.LinHost

end
-- ==== Proof.RefNet.lean ====
/-
  The reference's result as one layered function of its arguments, on the extended reals, in the reference's own
  vocabulary: the degree norms (clip at 1 of the scatter-added ones, to the power -1/2), the wrapped gather indices,
  a graph convolution (scale the rows by the source norm, gather along the edges, scatter-add into the targets, scale by
  the target norm), the edge features (sum of the two gathered end points), the five dense layers, and the slices of
  the stacked weights and biases. The reference's composed result term is this function of the launch contents of its
  arguments: both are the same term once the definitions are opened.
-/
import proofs.«165604_j8830452760704_1_alg».proof.Proof.Gen.ReferenceIdeal.Run
import Idealize.ShloMosaic.PureOps.Ideal

noncomputable section

namespace Cert.Net

open Cert.ReferenceIdeal Cert.ReferenceIdeal.Gen Idealize.ShloMosaic Idealize.ShloMosaic.TcCoe Idealize.SL.Sem Idealize.ShloMosaic.StableHlo

/-- The degree norm of an index column: the ones scatter-added at the indices, clipped below at 1, to the power -1/2. -/
def norm (a : IVec S800000 32) : FVec Ideal S50000 .f32 :=
  Host.powf (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 a) (broadcastInDim S800000 ![] bcast_S_S800000 (constant S_ .f32 0x3F800000#32)))) (broadcastInDim S50000 ![] bcast_S_S50000 (constant S_ .f32 0xBF000000#32))

/-- The gather indices: a negative index wraps around by the 50000 rows; as a column. -/
def gidx (a : IVec S800000 32) : IVec S800000x1 32 :=
  broadcastInDim S800000x1 ![0] bcast_S800000_S800000x1_0 (select (cmpi .slt a (broadcastInDim S800000 ![] bcast_S_S800000 (constantI S_ 32 0#32))) (addi a (broadcastInDim S800000 ![] bcast_S_S800000 (constantI S_ 32 50000#32))) a)

/-- One graph convolution: rows scaled by the norm of `a2`, gathered at `a2`, scatter-added at `a3` into zero, rows
    scaled by the norm of `a3`. -/
def conv (h : FVec Ideal S50000x128 .f32) (a2 a3 : IVec S800000 32) : FVec Ideal S50000x128 .f32 :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 a3) (Host.gather gather_S50000x128_S800000x1_S800000x128_1_0_n_n_0_1_1128 (mulf h (broadcastInDim S50000x128 ![0, 1] bcast_S50000x1_S50000x128_0_1 (broadcastInDim S50000x1 ![0] bcast_S50000_S50000x1_0 (norm a2)))) (gidx a2))) (broadcastInDim S50000x128 ![0, 1] bcast_S50000x1_S50000x128_0_1 (broadcastInDim S50000x1 ![0] bcast_S50000_S50000x1_0 (norm a3)))

/-- The edge features: the sum of the rows gathered at the two end points. -/
def edge (h : FVec Ideal S50000x128 .f32) (a2 a3 : IVec S800000 32) : FVec Ideal S800000x128 .f32 :=
  addf (Host.gather gather_S50000x128_S800000x1_S800000x128_1_0_n_n_0_1_1128 h (gidx a2)) (Host.gather gather_S50000x128_S800000x1_S800000x128_1_0_n_n_0_1_1128 h (gidx a3))

/-- The node embedding `x · w + b`. -/
def dense0 (x : FVec Ideal S50000x4 .f32) (w : FVec Ideal S4x128 .f32) (b : FVec Ideal S128 .f32) : FVec Ideal S50000x128 .f32 :=
  addf (Host.dotGeneral dot_S50000x4_S4x128_S50000x128_1_0_0_1_n_n none x w) (broadcastInDim S50000x128 ![0, 1] bcast_S1x128_S50000x128_0_1 (broadcastInDim S1x128 ![1] bcast_S128_S1x128_1 b))

/-- A graph-convolution weight layer `max (x · w + b) 0`. -/
def dense12 (x : FVec Ideal S50000x128 .f32) (w : FVec Ideal S128x128 .f32) (b : FVec Ideal S128 .f32) : FVec Ideal S50000x128 .f32 :=
  maximumf (addf (Host.dotGeneral dot_S50000x128_S128x128_S50000x128_1_0_0_1_n_n none x w) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The first read-out layer `max (x · w + b) 0` on the edges. -/
def dense3 (x : FVec Ideal S800000x128 .f32) (w : FVec Ideal S128x128 .f32) (b : FVec Ideal S128 .f32) : FVec Ideal S800000x128 .f32 :=
  maximumf (addf (Host.dotGeneral dot_S800000x128_S128x128_S800000x128_1_0_0_1_n_n none x w) (broadcastInDim S800000x128 ![0, 1] bcast_S1x128_S800000x128_0_1 (broadcastInDim S1x128 ![1] bcast_S128_S1x128_1 b))) (broadcastInDim S800000x128 ![] bcast_S_S800000x128 (constant S_ .f32 0x00000000#32))

/-- The second read-out layer `x · w + b`, one output column. -/
def dense4 (x : FVec Ideal S800000x128 .f32) (w : FVec Ideal S128x1 .f32) (b : FVec Ideal S1 .f32) : FVec Ideal S800000x1 .f32 :=
  addf (Host.dotGeneral dot_S800000x128_S128x1_S800000x1_1_0_0_1_n_n none x w) (broadcastInDim S800000x1 ![0, 1] bcast_S1x1_S800000x1_0_1 (broadcastInDim S1x1 ![1] bcast_S1_S1x1_1 b))

/-- The first of the two stacked weight matrices. -/
def gW0 (a8 : FVec Ideal S2x128x128 .f32) : FVec Ideal S128x128 .f32 :=
  shapeCast _ (extractStridedSlice S1x128x128 ![0, 0, 0] a8 slices_S2x128x128_S1x128x128_0_0_0) shapeCasts_S1x128x128_S128x128
/-- The second of the two stacked weight matrices. -/
def gW1 (a8 : FVec Ideal S2x128x128 .f32) : FVec Ideal S128x128 .f32 :=
  shapeCast _ (extractStridedSlice S1x128x128 ![1, 0, 0] a8 slices_S2x128x128_S1x128x128_1_0_0) shapeCasts_S1x128x128_S128x128
/-- The first of the two stacked biases. -/
def gB0 (a9 : FVec Ideal S2x128 .f32) : FVec Ideal S128 .f32 :=
  shapeCast _ (extractStridedSlice S1x128 ![0, 0] a9 slices_S2x128_S1x128_0_0) shapeCasts_S1x128_S128
/-- The second of the two stacked biases. -/
def gB1 (a9 : FVec Ideal S2x128 .f32) : FVec Ideal S128 .f32 :=
  shapeCast _ (extractStridedSlice S1x128 ![1, 0] a9 slices_S2x128_S1x128_1_0) shapeCasts_S1x128_S128

/-- The whole network: embedding, two convolutions each followed by its weight layer, edge features, two read-out layers. -/
def out (a1 : FVec Ideal S50000x4 .f32) (a2 a3 : IVec S800000 32) (a6 : FVec Ideal S4x128 .f32) (a7 : FVec Ideal S128 .f32)
    (a8 : FVec Ideal S2x128x128 .f32) (a9 : FVec Ideal S2x128 .f32) (a10 : FVec Ideal S128x128 .f32) (a11 : FVec Ideal S128 .f32)
    (a12 : FVec Ideal S128x1 .f32) (a13 : FVec Ideal S1 .f32) : FVec Ideal S800000x1 .f32 :=
  dense4 (dense3 (edge (dense12 (conv (dense12 (conv (dense0 a1 a6 a7) a2 a3) (gW0 a8) (gB0 a9)) a2 a3) (gW1 a8) (gB1 a9)) a2 a3) a10 a11) a12 a13

/-- The reference's composed result term is `out` of the launch contents of its arguments. -/
theorem ref_value (m : (ℓ : Loc nD τ sig) → Buf (Elt Ideal) ℓ) (c : Dev nD) :
    Cert.ReferenceIdeal.Value.res_main_v94 m c
      = out (m ((c.tc : Thread nD τ).loc main_arg1))
          (m ((c.tc : Thread nD τ).loc main_arg2))
          (m ((c.tc : Thread nD τ).loc main_arg3))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13)) := by
  unfold Cert.ReferenceIdeal.Value.res_main_v94 out dense4 dense3 edge dense12 conv dense0 gW0 gW1 gB0 gB1 gidx norm
  rfl

end Cert.Net

end
-- ==== Proof.Whole.lean ====
/-
  The idealized kernel's result array as one function of its arguments. Going backwards from the result: it is the
  first 800000 rows of the last tiled call's output; each tiled call's output is the layer `x · w + b` (or its positive
  part) of the arrays the call finds (modules Layer0 … Layer4); those arrays are the previous call's output with its
  padding rows cut off, passed through the plain host operations between the calls (degree norms, gathers, scatter-adds,
  pads: module KChain), and padded again. A padded-tiled-sliced layer is the plain layer on the unpadded rows
  (modules LinHost0 … LinHost4), so the whole composition is the network `Cert.Net.out` that the reference computes,
  operation for operation, on the same eleven argument arrays.
-/
import proofs.«165604_j8830452760704_1_alg».proof.Proof.KChain
import proofs.«165604_j8830452760704_1_alg».proof.Proof.Layer0
import proofs.«165604_j8830452760704_1_alg».proof.Proof.Layer1
import proofs.«165604_j8830452760704_1_alg».proof.Proof.Layer2
import proofs.«165604_j8830452760704_1_alg».proof.Proof.Layer3
import proofs.«165604_j8830452760704_1_alg».proof.Proof.Layer4
import proofs.«165604_j8830452760704_1_alg».proof.Proof.LinHost0
import proofs.«165604_j8830452760704_1_alg».proof.Proof.LinHost12
import proofs.«165604_j8830452760704_1_alg».proof.Proof.LinHost3
import proofs.«165604_j8830452760704_1_alg».proof.Proof.LinHost4
import proofs.«165604_j8830452760704_1_alg».proof.Proof.RefNet

set_option maxRecDepth 16384

noncomputable section

namespace Cert.KernelIdeal.Whole

open Cert.KernelIdeal Cert.KernelIdeal.Gen Cert.KernelIdeal.Chain Idealize.ShloMosaic Idealize.ShloMosaic.TcCoe Idealize.SL.Sem

variable (m : (ℓ : Loc nD τ sig) → Buf (Elt Ideal) ℓ) (ρ : Dev nD → PrngReg) (c : Dev nD)

/-- After each tiled call its output array is the layer of its three input arrays as the call finds them. -/
theorem res0 : W8 m ρ c (Proc.devRef .tc main_v15) = Cert.Lin.lin (V7 m ρ c main_v13) (V7 m ρ c main_arg6) (V7 m ρ c main_v14) :=
  (W8_arr m ρ c 3).trans (Layer0.final (V7 m ρ) c)
theorem res1 : W12 m ρ c (Proc.devRef .tc main_v39) = Cert.Lin.linRelu (V11 m ρ c main_v37) (V11 m ρ c main_v34) (V11 m ρ c main_v38) :=
  (W12_arr m ρ c 3).trans (Layer1.final (V11 m ρ) c)
theorem res2 : W16 m ρ c (Proc.devRef .tc main_v63) = Cert.Lin.linRelu (V15 m ρ c main_v61) (V15 m ρ c main_v58) (V15 m ρ c main_v62) :=
  (W16_arr m ρ c 3).trans (Layer2.final (V15 m ρ) c)
theorem res3 : W20 m ρ c (Proc.devRef .tc main_v82) = Cert.Lin.linRelu (V19 m ρ c main_v80) (V19 m ρ c main_arg10) (V19 m ρ c main_v81) :=
  (W20_arr m ρ c 3).trans (Layer3.final (V19 m ρ) c)
theorem res4 : W24 m ρ c (Proc.devRef .tc main_v86) = Cert.Lin.lin (V23 m ρ c main_v84) (V23 m ρ c main_arg12) (V23 m ρ c main_v85) :=
  (W24_arr m ρ c 3).trans (Layer4.final (V23 m ρ) c)

set_option maxHeartbeats 1000000 in
/-- THE KERNEL'S RESULT: the network of the argument arrays. First every tiled call's output is replaced by its layer
    and every input array by its host term, innermost last; then each pad–layer–slice is the plain layer; what is
    left is the reference's network spelt with the kernel program's own names for the same dimension records. -/
theorem kernel_value : W25 m ρ c (Proc.devRef .tc main_v87)
    = Cert.Net.out (m ((c.tc : Thread nD τ).loc main_arg1)) (m ((c.tc : Thread nD τ).loc main_arg2)) (m ((c.tc : Thread nD τ).loc main_arg3))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  rw [Chain.out, res4, in4_x, in4_w, in4_b, res3, in3_x, in3_w, in3_b, res2, in2_x, in2_w, in2_b, res1, in1_x, in1_w, in1_b, res0, in0_x, in0_w, in0_b]
  rw [Cert.LinHost.LL4, Cert.LinHost.LL3, Cert.LinHost.LL12, Cert.LinHost.LL12, Cert.LinHost.LL0]
  generalize m ((c.tc : Thread nD τ).loc main_arg1) = a1
  generalize m ((c.tc : Thread nD τ).loc main_arg2) = a2
  generalize m ((c.tc : Thread nD τ).loc main_arg3) = a3
  generalize m ((c.tc : Thread nD τ).loc main_arg6) = a6
  generalize m ((c.tc : Thread nD τ).loc main_arg7) = a7
  generalize m ((c.tc : Thread nD τ).loc main_arg8) = a8
  generalize m ((c.tc : Thread nD τ).loc main_arg9) = a9
  generalize m ((c.tc : Thread nD τ).loc main_arg10) = a10
  generalize m ((c.tc : Thread nD τ).loc main_arg11) = a11
  generalize m ((c.tc : Thread nD τ).loc main_arg12) = a12
  generalize m ((c.tc : Thread nD τ).loc main_arg13) = a13
  unfold Cert.Net.out Cert.Net.dense4 Cert.Net.dense3 Cert.Net.edge Cert.Net.dense12 Cert.Net.conv Cert.Net.dense0 Cert.Net.gW0 Cert.Net.gW1 Cert.Net.gB0 Cert.Net.gB1 Cert.Net.gidx Cert.Net.norm
  unfold Chain.graphAgg Chain.degNorm Chain.gatherIdx
  rfl

end Cert.KernelIdeal.Whole

end
-- ==== Proof.lean ====
/-
  A two-layer graph-convolution network with an edge read-out: a node embedding, twice (scale the node rows by the
  out-degree norm, gather them along the edges, scatter-add them at the destinations, scale by the in-degree norm,
  apply a weight layer with relu), then per edge the sum of the two end points' rows through a hidden layer with relu
  and a last layer with one output column. The kernel runs the five weight layers as tiled calls on row-padded arrays
  and everything else as plain host operations; the reference runs the same host operations and plain matrix
  products. On the extended reals the five tiled layers are the reference's five layers (a row of a tiled layer reads
  only its own row of the padded input, the roundings to bf16 are the identity, a product into a zero accumulator is
  the plain sum), and the remaining operations are the same operations on equal operands: the two results are one
  function of the argument arrays, `Cert.Net.out`. No law of the extended reals beyond reading both sides entry by
  entry is used, so the finiteness of the inputs is never opened; the idealization rewrote nothing, so `preserves` is
  trivial; the three frames are the runs themselves with their value statements dropped.
-/
import proofs.«165604_j8830452760704_1_alg».proof.Defs
import proofs.«165604_j8830452760704_1_alg».proof.Proof.Gen.Kernel
import proofs.«165604_j8830452760704_1_alg».proof.Proof.Gen.Kernel.Frame
import proofs.«165604_j8830452760704_1_alg».proof.Proof.Gen.KernelIdeal
import proofs.«165604_j8830452760704_1_alg».proof.Proof.Gen.KernelIdeal.Frame
import proofs.«165604_j8830452760704_1_alg».proof.Proof.Gen.ReferenceIdeal
import proofs.«165604_j8830452760704_1_alg».proof.Proof.Gen.ReferenceIdeal.Run
import proofs.«165604_j8830452760704_1_alg».proof.Proof.Gen.ReferenceIdeal.Read
import proofs.«165604_j8830452760704_1_alg».proof.Proof.Gen.Pre_finite_inputs
import proofs.«165604_j8830452760704_1_alg».proof.Proof.KRun
import proofs.«165604_j8830452760704_1_alg».proof.Proof.Whole
import proofs.«165604_j8830452760704_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both programs end with the network `Cert.Net.out` of the eleven argument arrays they read, which agree. -/
theorem algebraic : Cert.algebraic_KernelIdeal_ReferenceIdeal := by
  intro m ρ m' ρ' _ hagree
  refine ⟨fun c => Cert.Net.out
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Whole.kernel_value m ρ c), (h c).2⟩)
      (Cert.KernelIdeal.Chain.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨-, h1, h2, h3, -, -, h6, h7, h8, h9, h10, h11, h12, h13⟩ := hagree c
    rw [Cert.Net.ref_value m' c, h1, h2, h3, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
